-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S3x128x128 : Shape := ⟨3, ![3, 128, 128]⟩
abbrev S3x128 : Shape := ⟨2, ![3, 128]⟩
abbrev S128x256 : Shape := ⟨2, ![128, 256]⟩
abbrev S256 : Shape := ⟨1, ![256]⟩
abbrev S256x6 : Shape := ⟨2, ![256, 6]⟩
abbrev S6 : Shape := ⟨1, ![6]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x6 : S_.BroadcastsInDim S256x6 (![] : Fin 0 → Fin S256x6.rank)
  reducesTo_S256x6_S_d0_1 : S256x6.ReducesTo [0, 1] S_
  bcast_S_S6 : S_.BroadcastsInDim S6 (![] : Fin 0 → Fin S6.rank)
  reducesTo_S6_S_d0 : S6.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S256x6 .f32) (main_arg14 : FVec F S6 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x6 .f32 := Host.absf main_arg13
  let main_cst_22 : FVec F S_ .f32 := constant S_ .f32 0x7F800000#32
  let main_v60 : FVec F S256x6 .f32 := broadcastInDim S256x6 ![] bcast_S_S256x6 main_cst_22
  let main_v61 : IVec S256x6 1 := cmpf .olt main_v59 main_v60
  let main_c_23 : IVec S_ 1 := constantI S_ 1 1#1
  let main_v62 : IVec S_ 1 := (fun x v => Host.reduce IntOp.andi x v reducesTo_S256x6_S_d0_1 h_S_) main_v61 main_c_23
  let main_v63 : IVec S_ 1 := andi main_v58 main_v62
  let main_v64 : FVec F S6 .f32 := Host.absf main_arg14
  let main_cst_24 : FVec F S_ .f32 := constant S_ .f32 0x7F800000#32
  let main_v65 : FVec F S6 .f32 := broadcastInDim S6 ![] bcast_S_S6 main_cst_24
  let main_v66 : IVec S6 1 := cmpf .olt main_v64 main_v65
  let main_c_25 : IVec S_ 1 := constantI S_ 1 1#1
  let main_v67 : IVec S_ 1 := (fun x v => Host.reduce IntOp.andi x v reducesTo_S6_S_d0 h_S_) main_v66 main_c_25
  fn_part4 (F := F) main_v63 main_v67

def fn_part2 {F : FTy → Type} [FloatOps F] (main_arg8 : FVec F S3x128 .f32) (main_arg9 : FVec F S3x128 .f32) (main_arg10 : FVec F S3x128 .f32) (main_arg11 : FVec F S128x256 .f32) (main_arg12 : FVec F S256 .f32) (main_arg13 : FVec F S256x6 .f32) (main_arg14 : FVec F S6 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg12 main_arg13 main_arg14 main_v48 main_v49 main_v50

def fn_part1 {F : FTy → Type} [FloatOps F] (main_arg5 : FVec F S3x128x128 .f32) (main_arg6 : FVec F S3x128 .f32) (main_arg7 : FVec F S3x128 .f32) (main_arg8 : FVec F S3x128 .f32) (main_arg9 : FVec F S3x128 .f32) (main_arg10 : FVec F S3x128 .f32) (main_arg11 : FVec F S128x256 .f32) (main_arg12 : FVec F S256 .f32) (main_arg13 : FVec F S256x6 .f32) (main_arg14 : FVec F S6 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : FVec F S1600000 .f32) (main_arg3 : FVec F S3x128x128 .f32) (main_arg4 : FVec F S3x128 .f32) (main_arg5 : FVec F S3x128x128 .f32) (main_arg6 : FVec F S3x128 .f32) (main_arg7 : FVec F S3x128 .f32) (main_arg8 : FVec F S3x128 .f32) (main_arg9 : FVec F S3x128 .f32) (main_arg10 : FVec F S3x128 .f32) (main_arg11 : FVec F S128x256 .f32) (main_arg12 : FVec F S256 .f32) (main_arg13 : FVec F S256x6 .f32) (main_arg14 : FVec F S6 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S3x128x128 : Shape := ⟨3, ![3, 128, 128]⟩
abbrev S3x128 : Shape := ⟨2, ![3, 128]⟩
abbrev S128x256 : Shape := ⟨2, ![128, 256]⟩
abbrev S256 : Shape := ⟨1, ![256]⟩
abbrev S256x6 : Shape := ⟨2, ![256, 6]⟩
abbrev S6 : Shape := ⟨1, ![6]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S1x256 : Shape := ⟨2, ![1, 256]⟩
abbrev S1x6 : Shape := ⟨2, ![1, 6]⟩
abbrev S100000x6 : Shape := ⟨2, ![100000, 6]⟩
abbrev S2000x6 : Shape := ⟨2, ![2000, 6]⟩
abbrev S2000x256 : Shape := ⟨2, ![2000, 256]⟩

abbrev nBuf : Space → Nat
  | .hbm => 139
  | .vmem => 50
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S3x128, .f32⟩
  | 10 => ⟨S3x128, .f32⟩
  | 11 => ⟨S128x256, .f32⟩
  | 12 => ⟨S256, .f32⟩
  | 13 => ⟨S256x6, .f32⟩
  | 14 => ⟨S6, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S1600000x1, .f32⟩
  | 29 => ⟨S1600000x128, .f32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S1x128x128, .f32⟩
  | 36 => ⟨S128x128, .f32⟩
  | 37 => ⟨S1x128, .f32⟩
  | 38 => ⟨S128, .f32⟩
  | 39 => ⟨S1x128x128, .f32⟩
  | 40 => ⟨S128x128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S128, .f32⟩
  | 51 => ⟨S1x128, .f32⟩
  | 52 => ⟨S1x128, .f32⟩
  | 53 => ⟨S1x128, .f32⟩
  | 54 => ⟨S1x128, .f32⟩
  | 55 => ⟨S1x128, .f32⟩
  | 56 => ⟨S1x128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S1600000x1, .f32⟩
  | 68 => ⟨S1600000x128, .f32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S1x128x128, .f32⟩
  | 75 => ⟨S128x128, .f32⟩
  | 76 => ⟨S1x128, .f32⟩
  | 77 => ⟨S128, .f32⟩
  | 78 => ⟨S1x128x128, .f32⟩
  | 79 => ⟨S128x128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S1x128, .f32⟩
  | 92 => ⟨S1x128, .f32⟩
  | 93 => ⟨S1x128, .f32⟩
  | 94 => ⟨S1x128, .f32⟩
  | 95 => ⟨S1x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S1600000x1, .f32⟩
  | 107 => ⟨S1600000x128, .f32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S1x128x128, .f32⟩
  | 114 => ⟨S128x128, .f32⟩
  | 115 => ⟨S1x128, .f32⟩
  | 116 => ⟨S128, .f32⟩
  | 117 => ⟨S1x128x128, .f32⟩
  | 118 => ⟨S128x128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S1x128, .f32⟩
  | 3 => ⟨S1x128, .f32⟩
  | 4 => ⟨S1x128, .f32⟩
  | 5 => ⟨S1x128, .f32⟩
  | 6 => ⟨S1x128, .f32⟩
  | 7 => ⟨S100000x128, .f32⟩
  | 8 => ⟨S1x256, .f32⟩
  | 9 => ⟨S1x6, .f32⟩
  | 10 => ⟨S100000x6, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x256, .f32⟩
  | .local _ .vmem, ⟨45, _⟩ => ⟨S1x256, .f32⟩
  | .local _ .vmem, ⟨46, _⟩ => ⟨S256x6, .f32⟩
  | .local _ .vmem, ⟨47, _⟩ => ⟨S1x6, .f32⟩
  | .local _ .vmem, ⟨48, _⟩ => ⟨S2000x6, .f32⟩
  | .local _ .vmem, ⟨49, _⟩ => ⟨S2000x6, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_1 : Ref sig .tc := ⟨.hbm, 58, rfl⟩
abbrev main_v40 : Ref sig .tc := ⟨.hbm, 59, rfl⟩
abbrev main_v41 : Ref sig .tc := ⟨.hbm, 60, rfl⟩
abbrev main_c_2 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_3 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_4 : Ref sig .tc := ⟨.hbm, 97, rfl⟩
abbrev main_v76 : Ref sig .tc := ⟨.hbm, 98, rfl⟩
abbrev main_v77 : Ref sig .tc := ⟨.hbm, 99, rfl⟩
abbrev main_c_5 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_6 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg2_0 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg5_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem0_1 : DmaSem sig := 43
abbrev cc3_sem1_0 : DmaSem sig := 44
abbrev cc3_sem2_0 : DmaSem sig := 45
abbrev cc3_sem3_0 : DmaSem sig := 46
abbrev cc3_sem4_0 : DmaSem sig := 47
abbrev cc3_sem5_0 : DmaSem sig := 48
abbrev cc3_sem5_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x6 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x6 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x6 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S256_S1x256 : S256.ShapeCasts S1x256
  shapeCasts_S6_S1x6 : S6.ShapeCasts S1x6
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x6_S256x6_0_0 : ∀ a, (![0, 0] : Fin 2 → Nat) a + S256x6.size a ≤ S256x6.size a
  h_S256x6 : 0 < S256x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S2000x6 : S1x6.Broadcasts S2000x6
  inb_S2000x6_S2000x6_0_0 : ∀ a, (![0, 0] : Fin 2 → Nat) a + S2000x6.size a ≤ S2000x6.size a
  h_S2000x6 : 0 < S2000x6.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  dot_S2000x256_S256x6_S2000x6_1_0_0_1_n_n_wf : DotDims.WF S2000x256 S256x6 S2000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S100000x128.size a
  hwx0_10 : ∀ i : grid0.Coords, EltTy.bits .f32 = 32 ∨ (Rect.block (s := S100000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S100000x128.size a
  hwx1_10 : ∀ i : grid1.Coords, EltTy.bits .f32 = 32 ∨ (Rect.block (s := S100000x128) S2000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S100000x128.size a
  hwx2_10 : ∀ i : grid2.Coords, EltTy.bits .f32 = 32 ∨ (Rect.block (s := S100000x128) S2000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x6.size a ≤ S256x6.size a
  hwx3_3 : ∀ i : grid3.Coords, EltTy.bits .f32 = 32 ∨ (Rect.block (s := S256x6) S256x6.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x6.size a ≤ S1x6.size a
  hwx3_4 : ∀ i : grid3.Coords, EltTy.bits .f32 = 32 ∨ (Rect.block (s := S1x6) S1x6.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x6.size a ≤ S100000x6.size a
  hwx3_5 : ∀ i : grid3.Coords, EltTy.bits .f32 = 32 ∨ (Rect.block (s := S100000x6) S2000x6.size (cc3_transform_5 i) (hinb3_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x6_S2000x6_1_0_0_1_n_n : DotDims S2000x256 S256x6 S2000x6 where
  lhsContracting := [1]
  rhsContracting := [0]
  lhsNonContracting := [0]
  rhsNonContracting := [1]
  lhsBatch := []
  rhsBatch := []
  wf := dot_S2000x256_S256x6_S2000x6_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v38) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v70) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v71) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v72) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v73) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v74) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v75) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v75) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v90) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v105) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v94) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v106) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v107) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v108) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v109) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v110) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v111) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v111) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v112) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S256x6.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v113) S1x6.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v114) S2000x6.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S3x128x128 : Shape := ⟨3, ![3, 128, 128]⟩
abbrev S3x128 : Shape := ⟨2, ![3, 128]⟩
abbrev S128x256 : Shape := ⟨2, ![128, 256]⟩
abbrev S256 : Shape := ⟨1, ![256]⟩
abbrev S256x6 : Shape := ⟨2, ![256, 6]⟩
abbrev S6 : Shape := ⟨1, ![6]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S100000x256 : Shape := ⟨2, ![100000, 256]⟩
abbrev S1x256 : Shape := ⟨2, ![1, 256]⟩
abbrev S100000x6 : Shape := ⟨2, ![100000, 6]⟩
abbrev S1x6 : Shape := ⟨2, ![1, 6]⟩

abbrev nBuf : Space → Nat
  | .hbm => 219
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S3x128, .f32⟩
  | 10 => ⟨S3x128, .f32⟩
  | 11 => ⟨S128x256, .f32⟩
  | 12 => ⟨S256, .f32⟩
  | 13 => ⟨S256x6, .f32⟩
  | 14 => ⟨S6, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S1600000x1, .f32⟩
  | 29 => ⟨S1600000x128, .f32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x128, .f32⟩
  | 36 => ⟨S1x128x128, .f32⟩
  | 37 => ⟨S128x128, .f32⟩
  | 38 => ⟨S100000x128, .f32⟩
  | 39 => ⟨S1x128, .f32⟩
  | 40 => ⟨S128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S1x128x128, .f32⟩
  | 48 => ⟨S128x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S1x128, .f32⟩
  | 61 => ⟨S128, .f32⟩
  | 62 => ⟨S_, .f32⟩
  | 63 => ⟨S128, .f32⟩
  | 64 => ⟨S128, .f32⟩
  | 65 => ⟨S128, .f32⟩
  | 66 => ⟨S1x128, .f32⟩
  | 67 => ⟨S100000x128, .f32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x128, .f32⟩
  | 91 => ⟨S1600000x1, .f32⟩
  | 92 => ⟨S1600000x128, .f32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S100000x128, .f32⟩
  | 99 => ⟨S1x128x128, .f32⟩
  | 100 => ⟨S128x128, .f32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S1x128x128, .f32⟩
  | 111 => ⟨S128x128, .f32⟩
  | 112 => ⟨S100000x128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S1x128, .f32⟩
  | 119 => ⟨S128, .f32⟩
  | 120 => ⟨S1x128, .f32⟩
  | 121 => ⟨S100000x128, .f32⟩
  | 122 => ⟨S100000x128, .f32⟩
  | 123 => ⟨S1x128, .f32⟩
  | 124 => ⟨S128, .f32⟩
  | 125 => ⟨S_, .f32⟩
  | 126 => ⟨S128, .f32⟩
  | 127 => ⟨S128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S1x128, .f32⟩
  | 5 => ⟨S128, .f32⟩
  | 6 => ⟨S1x128, .f32⟩
  | 7 => ⟨S100000x128, .f32⟩
  | 8 => ⟨S100000x128, .f32⟩
  | 9 => ⟨S1x128, .f32⟩
  | 10 => ⟨S128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S1600000x1, .f32⟩
  | 27 => ⟨S1600000x128, .f32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S100000x128, .f32⟩
  | 34 => ⟨S1x128x128, .f32⟩
  | 35 => ⟨S128x128, .f32⟩
  | 36 => ⟨S100000x128, .f32⟩
  | 37 => ⟨S1x128, .f32⟩
  | 38 => ⟨S128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S1x128x128, .f32⟩
  | 46 => ⟨S128x128, .f32⟩
  | 47 => ⟨S100000x128, .f32⟩
  | 48 => ⟨S1x128, .f32⟩
  | 49 => ⟨S128, .f32⟩
  | 50 => ⟨S1x128, .f32⟩
  | 51 => ⟨S100000x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S1x128, .f32⟩
  | 59 => ⟨S128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S100000x256, .f32⟩
  | 81 => ⟨S1x256, .f32⟩
  | 82 => ⟨S100000x256, .f32⟩
  | 83 => ⟨S100000x256, .f32⟩
  | 84 => ⟨S_, .f32⟩
  | 85 => ⟨S100000x256, .f32⟩
  | 86 => ⟨S100000x256, .f32⟩
  | 87 => ⟨S100000x6, .f32⟩
  | 88 => ⟨S1x6, .f32⟩
  | 89 => ⟨S100000x6, .f32⟩
  | 90 => ⟨S100000x6, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call0_cst : Ref sig .tc := ⟨.hbm, 44, rfl⟩
abbrev main_call0_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call1_cst : Ref sig .tc := ⟨.hbm, 79, rfl⟩
abbrev main_call1_v0 : Ref sig .tc := ⟨.hbm, 80, rfl⟩
abbrev main_v58 : Ref sig .tc := ⟨.hbm, 81, rfl⟩
abbrev main_c_2 : Ref sig .tc := ⟨.hbm, 82, rfl⟩
abbrev main_v59 : Ref sig .tc := ⟨.hbm, 83, rfl⟩
abbrev main_v60 : Ref sig .tc := ⟨.hbm, 84, rfl⟩
abbrev main_c_3 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_4 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_call2_cst : Ref sig .tc := ⟨.hbm, 107, rfl⟩
abbrev main_call2_v0 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_5 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_call3_cst : Ref sig .tc := ⟨.hbm, 142, rfl⟩
abbrev main_call3_v0 : Ref sig .tc := ⟨.hbm, 143, rfl⟩
abbrev main_v113 : Ref sig .tc := ⟨.hbm, 144, rfl⟩
abbrev main_c_6 : Ref sig .tc := ⟨.hbm, 145, rfl⟩
abbrev main_v114 : Ref sig .tc := ⟨.hbm, 146, rfl⟩
abbrev main_v115 : Ref sig .tc := ⟨.hbm, 147, rfl⟩
abbrev main_c_7 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_8 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_call4_cst : Ref sig .tc := ⟨.hbm, 170, rfl⟩
abbrev main_call4_v0 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_9 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_call5_cst : Ref sig .tc := ⟨.hbm, 205, rfl⟩
abbrev main_call5_v0 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_call6_cst : Ref sig .tc := ⟨.hbm, 212, rfl⟩
abbrev main_call6_v0 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x256_S100000x256_1_0_0_1_n_n_wf : DotDims.WF S100000x128 S128x256 S100000x256 [1] [0] [0] [1] [] []
  dot_S100000x256_S256x6_S100000x6_1_0_0_1_n_n_wf : DotDims.WF S100000x256 S256x6 S100000x6 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x6_S100000x6_1_0_0_1_n_n : DotDims S100000x256 S256x6 S100000x6 where
  lhsContracting := [1]
  rhsContracting := [0]
  lhsNonContracting := [0]
  rhsNonContracting := [1]
  lhsBatch := []
  rhsBatch := []
  wf := dot_S100000x256_S256x6_S100000x6_1_0_0_1_n_n_wf

class Facts : Prop extends Facts₀ where

variable [Facts]
-- ==== Proof.KRun.lean ====
/-
  The idealized kernel program's run with its result named.

  The program is eight segments: a stretch of host operations, then a layer's kernel, three times, then a last stretch and
  the head's kernel. Every weakly fair execution runs them in order; at each boundary the unscoped buffers hold the fold
  of the segments so far over the launch memory (a host stretch: its operations applied; a kernel: its arrays at what the
  write-backs leave, every other buffer untouched). After the last segment the result buffer therefore holds that fold's
  value at the result, and the argument arrays are as launched. The statement below is the launch theorem for a list of
  segments instantiated at this program's segments, reading the result buffer as well as the arguments out of the last
  boundary's contents.
-/
import proofs.«122921_j10986526343328_1_alg».proof.Proof.Gen.KernelIdeal.Frame

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the argument arrays as launched. -/
theorem run : θ_run defs (onTc (τ := τ) (main (F := F))) ⟨m, fun _ => 0, ρ⟩ (fun r => ∀ c : Dev nD,
      r.2.mem ((c.tc : Thread nD τ).loc main_v114) = W8 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v114 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KRun

end
-- ==== Proof.Spec.lean ====
/-
  The network both programs compute, as functions on the extended reals read at an entry.

  One message-passing layer takes the node features h : [R, 128] and the aggregated messages a : [R, 128] and returns,
  at row p and lane q,

      max( ((z2(p, q) - mu(q)) * rsqrt(va(q) + eps)) * g(q) + be(q), 0 ),
      z2(p, q) = sum_k max( sum_j (h(p, j) + a(p, j)) * w1(j, k) + b1(k), 0 ) * w2(k, q) + b2(q):

  two dense layers with a rectifier between them, a normalisation by stored statistics, and a rectifier. The head is two
  dense layers with a rectifier between them. Every per-lane parameter is kept as a one-row matrix [1, n]. Row p of the
  result depends on row p of h and a only, which is what lets a kernel compute it one block of rows at a time.
  The literals (zero, and the small constant under the square root) are kept as their binary words: both programs spell
  the same words, so they are never evaluated.
-/
import Idealize.ShloMosaic.PureOps.Ideal.Laws
import Idealize.ShloMosaic.Lib.ValueIdx

noncomputable section

namespace Cert.Spec

open Idealize.ShloMosaic Idealize.ShloMosaic.ValueIdx

/-- An [a, b] array of extended reals. -/
abbrev Mat (a b : ℕ) : Type := (⟨2, ![a, b]⟩ : Shape).Idx → EReal

/-- The word of 0.0. -/
abbrev z0 : EReal := Ideal.ofBits .f32 0x00000000#32
/-- The word of the constant added to the variance. -/
abbrev eps : EReal := Ideal.ofBits .f32 0x3A83126F#32

/-- A dense layer at row `p`, column `k`: the row of `X` against the column of `W`, plus the bias at `k`. -/
def denseAt {R n h : ℕ} (X : Mat R n) (W : Mat n h) (b : Mat 1 h) (p : Fin R) (k : Fin h) : EReal :=
  (∑ i : Fin n, X (ix2 p i) * W (ix2 i k)) + b (ix2 (0 : Fin 1) k)

/-- The first dense layer of a message-passing layer, rectified, at row `p`, unit `k`. -/
def hiddenAt {R : ℕ} (h a : Mat R 128) (w1 : Mat 128 128) (b1 : Mat 1 128) (p : Fin R) (k : Fin 128) : EReal :=
  max ((∑ j : Fin 128, (h (ix2 p j) + a (ix2 p j)) * w1 (ix2 j k)) + b1 (ix2 (0 : Fin 1) k)) z0

/-- The second dense layer of a message-passing layer at row `p`, lane `q`. -/
def preNormAt {R : ℕ} (h a : Mat R 128) (w1 : Mat 128 128) (b1 : Mat 1 128) (w2 : Mat 128 128) (b2 : Mat 1 128)
    (p : Fin R) (q : Fin 128) : EReal :=
  (∑ k : Fin 128, hiddenAt h a w1 b1 p k * w2 (ix2 k q)) + b2 (ix2 (0 : Fin 1) q)

/-- One message-passing layer at row `p`, lane `q`. -/
def ginAt {R : ℕ} (h a : Mat R 128) (w1 : Mat 128 128) (b1 : Mat 1 128) (w2 : Mat 128 128)
    (b2 g be mu va : Mat 1 128) (p : Fin R) (q : Fin 128) : EReal :=
  max ((preNormAt h a w1 b1 w2 b2 p q - mu (ix2 (0 : Fin 1) q)) * Ideal.rsqrt (va (ix2 (0 : Fin 1) q) + eps) * g (ix2 (0 : Fin 1) q)
    + be (ix2 (0 : Fin 1) q)) z0

/-- One message-passing layer as an array. -/
def gin {R : ℕ} (h a : Mat R 128) (w1 : Mat 128 128) (b1 : Mat 1 128) (w2 : Mat 128 128)
    (b2 g be mu va : Mat 1 128) : Mat R 128 :=
  fun i => ginAt h a w1 b1 w2 b2 g be mu va (i 0) (i 1)

/-- The head at row `p`, label `q`. -/
def headAt {R : ℕ} (h : Mat R 128) (w3 : Mat 128 256) (b3 : Mat 1 256) (w4 : Mat 256 6) (b4 : Mat 1 6)
    (p : Fin R) (q : Fin 6) : EReal :=
  (∑ k : Fin 256, (max ((∑ j : Fin 128, h (ix2 p j) * w3 (ix2 j k)) + b3 (ix2 (0 : Fin 1) k)) z0) * w4 (ix2 k q))
    + b4 (ix2 (0 : Fin 1) q)

/-- The head as an array. -/
def head {R : ℕ} (h : Mat R 128) (w3 : Mat 128 256) (b3 : Mat 1 256) (w4 : Mat 256 6) (b4 : Mat 1 6) : Mat R 6 :=
  fun i => headAt h w3 b3 w4 b4 (i 0) (i 1)

/-- A layer's row `p` of a block is row `P` of the whole arrays when the block's row `p` is their row `P`. -/
theorem ginAt_rows {R R' : ℕ} (hB aB : Mat R 128) (h a : Mat R' 128) (w1 : Mat 128 128) (b1 : Mat 1 128) (w2 : Mat 128 128)
    (b2 g be mu va : Mat 1 128) (p : Fin R) (P : Fin R') (q : Fin 128)
    (hh : ∀ j, hB (ix2 p j) = h (ix2 P j)) (ha : ∀ j, aB (ix2 p j) = a (ix2 P j)) :
    ginAt hB aB w1 b1 w2 b2 g be mu va p q = ginAt h a w1 b1 w2 b2 g be mu va P q := by
  unfold ginAt preNormAt hiddenAt
  simp only [hh, ha]

/-- The head's row `p` of a block is row `P` of the whole array when the block's row `p` is its row `P`. -/
theorem headAt_rows {R R' : ℕ} (hB : Mat R 128) (h : Mat R' 128) (w3 : Mat 128 256) (b3 : Mat 1 256) (w4 : Mat 256 6)
    (b4 : Mat 1 6) (p : Fin R) (P : Fin R') (q : Fin 6) (hh : ∀ j, hB (ix2 p j) = h (ix2 P j)) :
    headAt hB w3 b3 w4 b4 p q = headAt h w3 b3 w4 b4 P q := by
  unfold headAt
  simp only [hh]

/-- The same with every other operand of the block the whole operand, entry by entry. -/
theorem ginAt_congr {R R' : ℕ} (hB aB : Mat R 128) (h a : Mat R' 128) (w1B w1 : Mat 128 128) (b1B b1 : Mat 1 128)
    (w2B w2 : Mat 128 128) (b2B b2 gB g beB be muB mu vaB va : Mat 1 128) (p : Fin R) (P : Fin R') (q : Fin 128)
    (hh : ∀ j, hB (ix2 p j) = h (ix2 P j)) (ha : ∀ j, aB (ix2 p j) = a (ix2 P j))
    (e1 : ∀ y, w1B y = w1 y) (e2 : ∀ y, b1B y = b1 y) (e3 : ∀ y, w2B y = w2 y) (e4 : ∀ y, b2B y = b2 y)
    (e5 : ∀ y, gB y = g y) (e6 : ∀ y, beB y = be y) (e7 : ∀ y, muB y = mu y) (e8 : ∀ y, vaB y = va y) :
    ginAt hB aB w1B b1B w2B b2B gB beB muB vaB p q = ginAt h a w1 b1 w2 b2 g be mu va P q := by
  obtain rfl : w1B = w1 := funext e1
  obtain rfl : b1B = b1 := funext e2
  obtain rfl : w2B = w2 := funext e3
  obtain rfl : b2B = b2 := funext e4
  obtain rfl : gB = g := funext e5
  obtain rfl : beB = be := funext e6
  obtain rfl : muB = mu := funext e7
  obtain rfl : vaB = va := funext e8
  exact ginAt_rows hB aB h a _ _ _ _ _ _ _ _ p P q hh ha

/-- The same for the head. -/
theorem headAt_congr {R R' : ℕ} (hB : Mat R 128) (h : Mat R' 128) (w3B w3 : Mat 128 256) (b3B b3 : Mat 1 256)
    (w4B w4 : Mat 256 6) (b4B b4 : Mat 1 6) (p : Fin R) (P : Fin R') (q : Fin 6)
    (hh : ∀ j, hB (ix2 p j) = h (ix2 P j))
    (e1 : ∀ y, w3B y = w3 y) (e2 : ∀ y, b3B y = b3 y) (e3 : ∀ y, w4B y = w4 y) (e4 : ∀ y, b4B y = b4 y) :
    headAt hB w3B b3B w4B b4B p q = headAt h w3 b3 w4 b4 P q := by
  obtain rfl : w3B = w3 := funext e1
  obtain rfl : b3B = b3 := funext e2
  obtain rfl : w4B = w4 := funext e3
  obtain rfl : b4B = b4 := funext e4
  exact headAt_rows hB h _ _ _ _ p P q hh

/-- Equal operands give equal layers. -/
theorem gin_congr_args {R : ℕ} {h h' a a' : Mat R 128} {w1 w1' : Mat 128 128} {b1 b1' : Mat 1 128} {w2 w2' : Mat 128 128}
    {b2 b2' g g' be be' mu mu' va va' : Mat 1 128}
    (e0 : h = h') (e1 : a = a') (e2 : w1 = w1') (e3 : b1 = b1') (e4 : w2 = w2') (e5 : b2 = b2') (e6 : g = g')
    (e7 : be = be') (e8 : mu = mu') (e9 : va = va') :
    gin h a w1 b1 w2 b2 g be mu va = gin h' a' w1' b1' w2' b2' g' be' mu' va' := by
  subst e0 e1 e2 e3 e4 e5 e6 e7 e8 e9; rfl

/-- Equal operands give equal heads. -/
theorem head_congr_args {R : ℕ} {h h' : Mat R 128} {w3 w3' : Mat 128 256} {b3 b3' : Mat 1 256} {w4 w4' : Mat 256 6}
    {b4 b4' : Mat 1 6} (e0 : h = h') (e1 : w3 = w3') (e2 : b3 = b3') (e3 : w4 = w4') (e4 : b4 = b4') :
    head h w3 b3 w4 b4 = head h' w3' b3' w4' b4' := by
  subst e0 e1 e2 e3 e4; rfl

end Cert.Spec

end
-- ==== Proof.KNet.lean ====
/-
  The whole network as one function of the fifteen argument arrays, spelt with the kernel program's host operations.

  The source and destination node of every edge are the two rows of the edge array. A layer's messages are gathered rows
  of the features (a negative source index wrapped by the number of nodes, as the host's indexing does), each scaled by
  its edge's weight, and added up per destination node from zero. Layer l's parameters are slice l of the stacked
  parameter arrays, a per-lane vector being laid out as a one-row matrix. Three layers follow each other, then the head.
-/
import proofs.«122921_j10986526343328_1_alg».proof.Proof.Gen.KernelIdeal
import proofs.«122921_j10986526343328_1_alg».proof.Proof.Spec

noncomputable section

namespace Cert.KNet

open Idealize.ShloMosaic Cert.KernelIdeal Cert.KernelIdeal.Facts₀ Cert.KernelIdeal.Facts

/-- Contents of an integer array. -/
abbrev CI (S : Shape) : Type := IVec S 32
/-- Contents of a float array. -/
abbrev CF (S : Shape) : Type := FVec Ideal S .f32

/-- The edges' source nodes: row 0 of the edge array. -/
def srcOf (ei : CI S2x1600000) : CI S1600000 :=
  shapeCast _ (extractStridedSlice S1x1600000 ![0, 0] ei slices_S2x1600000_S1x1600000_0_0) shapeCasts_S1x1600000_S1600000

/-- The edges' destination nodes: row 1 of the edge array. -/
def dstOf (ei : CI S2x1600000) : CI S1600000 :=
  shapeCast _ (extractStridedSlice S1x1600000 ![1, 0] ei slices_S2x1600000_S1x1600000_1_0) shapeCasts_S1x1600000_S1600000

/-- The messages of the features `h` added up per destination node. -/
def agg (h : CF S100000x128) (s d : CI S1600000) (ew : CF S1600000) : CF S100000x128 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (mulf
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))
      (broadcastInDim S1600000x128 ![0, 1] bcast_S1600000x1_S1600000x128_0_1
        (broadcastInDim S1600000x1 ![0] bcast_S1600000_S1600000x1_0 ew)))

/-- Slice 0, 1, 2 of a stack of three [128, 128] matrices. -/
def mat0 (W : CF S3x128x128) : CF S128x128 :=
  shapeCast _ (extractStridedSlice S1x128x128 ![0, 0, 0] W slices_S3x128x128_S1x128x128_0_0_0) shapeCasts_S1x128x128_S128x128
def mat1 (W : CF S3x128x128) : CF S128x128 :=
  shapeCast _ (extractStridedSlice S1x128x128 ![1, 0, 0] W slices_S3x128x128_S1x128x128_1_0_0) shapeCasts_S1x128x128_S128x128
def mat2 (W : CF S3x128x128) : CF S128x128 :=
  shapeCast _ (extractStridedSlice S1x128x128 ![2, 0, 0] W slices_S3x128x128_S1x128x128_2_0_0) shapeCasts_S1x128x128_S128x128

/-- Slice 0, 1, 2 of a stack of three [128] vectors, as a one-row matrix. -/
def row0 (b : CF S3x128) : CF S1x128 :=
  shapeCast _ (shapeCast S128 (extractStridedSlice S1x128 ![0, 0] b slices_S3x128_S1x128_0_0) shapeCasts_S1x128_S128) shapeCasts_S128_S1x128
def row1 (b : CF S3x128) : CF S1x128 :=
  shapeCast _ (shapeCast S128 (extractStridedSlice S1x128 ![1, 0] b slices_S3x128_S1x128_1_0) shapeCasts_S1x128_S128) shapeCasts_S128_S1x128
def row2 (b : CF S3x128) : CF S1x128 :=
  shapeCast _ (shapeCast S128 (extractStridedSlice S1x128 ![2, 0] b slices_S3x128_S1x128_2_0) shapeCasts_S1x128_S128) shapeCasts_S128_S1x128

/-- The head's bias vectors as one-row matrices. -/
def row256 (b : CF S256) : CF S1x256 := shapeCast _ b shapeCasts_S256_S1x256
def row6 (b : CF S6) : CF S1x6 := shapeCast _ b shapeCasts_S6_S1x6

/-- The three casts of a vector to a one-row matrix are well formed. -/
theorem hc128 : S128.ShapeCasts S1x128 := shapeCasts_S128_S1x128
theorem hc256 : S256.ShapeCasts S1x256 := shapeCasts_S256_S1x256
theorem hc6 : S6.ShapeCasts S1x6 := shapeCasts_S6_S1x6

variable (x : CF S100000x128) (ei : CI S2x1600000) (ew : CF S1600000) (W1 : CF S3x128x128) (b1 : CF S3x128)
  (W2 : CF S3x128x128) (b2 g be mu va : CF S3x128) (W3 : CF S128x256) (b3 : CF S256) (W4 : CF S256x6) (b4 : CF S6)

/-- The features after the first layer. -/
def h1 : CF S100000x128 :=
  Cert.Spec.gin x (agg x (srcOf ei) (dstOf ei) ew) (mat0 W1) (row0 b1) (mat0 W2) (row0 b2) (row0 g) (row0 be) (row0 mu) (row0 va)

/-- The features after the second layer. -/
def h2 : CF S100000x128 :=
  Cert.Spec.gin (h1 x ei ew W1 b1 W2 b2 g be mu va) (agg (h1 x ei ew W1 b1 W2 b2 g be mu va) (srcOf ei) (dstOf ei) ew)
    (mat1 W1) (row1 b1) (mat1 W2) (row1 b2) (row1 g) (row1 be) (row1 mu) (row1 va)

/-- The features after the third layer. -/
def h3 : CF S100000x128 :=
  Cert.Spec.gin (h2 x ei ew W1 b1 W2 b2 g be mu va) (agg (h2 x ei ew W1 b1 W2 b2 g be mu va) (srcOf ei) (dstOf ei) ew)
    (mat2 W1) (row2 b1) (mat2 W2) (row2 b2) (row2 g) (row2 be) (row2 mu) (row2 va)

/-- The network's result. -/
def net : CF S100000x6 :=
  Cert.Spec.head (h3 x ei ew W1 b1 W2 b2 g be mu va) W3 (row256 b3) W4 (row6 b4)

end Cert.KNet

end
-- ==== Proof.KCarry.lean ====
/-
  What the buffers that pass through the kernel program untouched hold at each segment boundary.

  The program's segments alternate host stretches and kernels. An argument array is written by no host operation and is
  the output of no kernel, so at every boundary it holds its launch contents; the same holds, from the first boundary
  on, for the two index vectors the first stretch cuts out of the edge array (the edges' sources and destinations),
  which later stretches read again. Each fact is read off the fold that names the boundary's contents: through a host
  stretch by running over its operations, none of which writes the buffer; through a kernel because the buffer is not
  among the kernel's arrays.
-/
import proofs.«122921_j10986526343328_1_alg».proof.Proof.Gen.KernelIdeal.Frame
import proofs.«122921_j10986526343328_1_alg».proof.Proof.KNet
import Idealize.ShloMosaic.Lib.StableHlo.Run
import Idealize.ShloMosaic.PureOps.Ideal

set_option maxRecDepth 16384

noncomputable section

namespace Cert.KCarry

open Idealize.ShloMosaic Idealize.ShloMosaic.TcCoe Idealize.SL.Sem Idealize.ShloMosaic.StableHlo
open Cert.KernelIdeal Cert.KernelIdeal.Gen Cert.KNet

variable (m : (ℓ : Loc nD τ sig) → Buf (Elt Ideal) ℓ) (ρ : Dev nD → PrngReg) (c : Dev nD)

/-! ## The contents at boundary 1 -/

theorem W1_main_arg0 : W1 m ρ c (Proc.devRef .tc main_arg0) = (m ((c : Thread nD τ).loc main_arg0)) := by
  show StableHlo.after hostOps0 (W0 m ρ c) (Proc.devRef .tc main_arg0) = _
  dsimp only [hostOps0]
  after_results_simp
  try rfl

theorem W1_main_arg2 : W1 m ρ c (Proc.devRef .tc main_arg2) = (m ((c : Thread nD τ).loc main_arg2)) := by
  show StableHlo.after hostOps0 (W0 m ρ c) (Proc.devRef .tc main_arg2) = _
  dsimp only [hostOps0]
  after_results_simp
  try rfl

theorem W1_main_arg3 : W1 m ρ c (Proc.devRef .tc main_arg3) = (m ((c : Thread nD τ).loc main_arg3)) := by
  show StableHlo.after hostOps0 (W0 m ρ c) (Proc.devRef .tc main_arg3) = _
  dsimp only [hostOps0]
  after_results_simp
  try rfl

theorem W1_main_arg4 : W1 m ρ c (Proc.devRef .tc main_arg4) = (m ((c : Thread nD τ).loc main_arg4)) := by
  show StableHlo.after hostOps0 (W0 m ρ c) (Proc.devRef .tc main_arg4) = _
  dsimp only [hostOps0]
  after_results_simp
  try rfl

theorem W1_main_arg5 : W1 m ρ c (Proc.devRef .tc main_arg5) = (m ((c : Thread nD τ).loc main_arg5)) := by
  show StableHlo.after hostOps0 (W0 m ρ c) (Proc.devRef .tc main_arg5) = _
  dsimp only [hostOps0]
  after_results_simp
  try rfl

theorem W1_main_arg6 : W1 m ρ c (Proc.devRef .tc main_arg6) = (m ((c : Thread nD τ).loc main_arg6)) := by
  show StableHlo.after hostOps0 (W0 m ρ c) (Proc.devRef .tc main_arg6) = _
  dsimp only [hostOps0]
  after_results_simp
  try rfl

theorem W1_main_arg7 : W1 m ρ c (Proc.devRef .tc main_arg7) = (m ((c : Thread nD τ).loc main_arg7)) := by
  show StableHlo.after hostOps0 (W0 m ρ c) (Proc.devRef .tc main_arg7) = _
  dsimp only [hostOps0]
  after_results_simp
  try rfl

theorem W1_main_arg8 : W1 m ρ c (Proc.devRef .tc main_arg8) = (m ((c : Thread nD τ).loc main_arg8)) := by
  show StableHlo.after hostOps0 (W0 m ρ c) (Proc.devRef .tc main_arg8) = _
  dsimp only [hostOps0]
  after_results_simp
  try rfl

theorem W1_main_arg9 : W1 m ρ c (Proc.devRef .tc main_arg9) = (m ((c : Thread nD τ).loc main_arg9)) := by
  show StableHlo.after hostOps0 (W0 m ρ c) (Proc.devRef .tc main_arg9) = _
  dsimp only [hostOps0]
  after_results_simp
  try rfl

theorem W1_main_arg10 : W1 m ρ c (Proc.devRef .tc main_arg10) = (m ((c : Thread nD τ).loc main_arg10)) := by
  show StableHlo.after hostOps0 (W0 m ρ c) (Proc.devRef .tc main_arg10) = _
  dsimp only [hostOps0]
  after_results_simp
  try rfl

theorem W1_main_arg11 : W1 m ρ c (Proc.devRef .tc main_arg11) = (m ((c : Thread nD τ).loc main_arg11)) := by
  show StableHlo.after hostOps0 (W0 m ρ c) (Proc.devRef .tc main_arg11) = _
  dsimp only [hostOps0]
  after_results_simp
  try rfl

theorem W1_main_arg12 : W1 m ρ c (Proc.devRef .tc main_arg12) = (m ((c : Thread nD τ).loc main_arg12)) := by
  show StableHlo.after hostOps0 (W0 m ρ c) (Proc.devRef .tc main_arg12) = _
  dsimp only [hostOps0]
  after_results_simp
  try rfl

theorem W1_main_arg13 : W1 m ρ c (Proc.devRef .tc main_arg13) = (m ((c : Thread nD τ).loc main_arg13)) := by
  show StableHlo.after hostOps0 (W0 m ρ c) (Proc.devRef .tc main_arg13) = _
  dsimp only [hostOps0]
  after_results_simp
  try rfl

theorem W1_main_arg14 : W1 m ρ c (Proc.devRef .tc main_arg14) = (m ((c : Thread nD τ).loc main_arg14)) := by
  show StableHlo.after hostOps0 (W0 m ρ c) (Proc.devRef .tc main_arg14) = _
  dsimp only [hostOps0]
  after_results_simp
  try rfl

theorem W1_main_v1 : W1 m ρ c (Proc.devRef .tc main_v1) = srcOf (m ((c : Thread nD τ).loc main_arg1)) := by
  show StableHlo.after hostOps0 (W0 m ρ c) (Proc.devRef .tc main_v1) = _
  dsimp only [hostOps0]
  after_results_simp
  try rfl

theorem W1_main_v3 : W1 m ρ c (Proc.devRef .tc main_v3) = dstOf (m ((c : Thread nD τ).loc main_arg1)) := by
  show StableHlo.after hostOps0 (W0 m ρ c) (Proc.devRef .tc main_v3) = _
  dsimp only [hostOps0]
  after_results_simp
  try rfl

/-! ## The contents at boundary 2 -/

theorem W2_main_arg2 : W2 m ρ c (Proc.devRef .tc main_arg2) = (m ((c : Thread nD τ).loc main_arg2)) :=
  (W2_of_ne m ρ c main_arg2 (by decide)).trans (W1_main_arg2 m ρ c)

theorem W2_main_arg3 : W2 m ρ c (Proc.devRef .tc main_arg3) = (m ((c : Thread nD τ).loc main_arg3)) :=
  (W2_of_ne m ρ c main_arg3 (by decide)).trans (W1_main_arg3 m ρ c)

theorem W2_main_arg4 : W2 m ρ c (Proc.devRef .tc main_arg4) = (m ((c : Thread nD τ).loc main_arg4)) :=
  (W2_of_ne m ρ c main_arg4 (by decide)).trans (W1_main_arg4 m ρ c)

theorem W2_main_arg5 : W2 m ρ c (Proc.devRef .tc main_arg5) = (m ((c : Thread nD τ).loc main_arg5)) :=
  (W2_of_ne m ρ c main_arg5 (by decide)).trans (W1_main_arg5 m ρ c)

theorem W2_main_arg6 : W2 m ρ c (Proc.devRef .tc main_arg6) = (m ((c : Thread nD τ).loc main_arg6)) :=
  (W2_of_ne m ρ c main_arg6 (by decide)).trans (W1_main_arg6 m ρ c)

theorem W2_main_arg7 : W2 m ρ c (Proc.devRef .tc main_arg7) = (m ((c : Thread nD τ).loc main_arg7)) :=
  (W2_of_ne m ρ c main_arg7 (by decide)).trans (W1_main_arg7 m ρ c)

theorem W2_main_arg8 : W2 m ρ c (Proc.devRef .tc main_arg8) = (m ((c : Thread nD τ).loc main_arg8)) :=
  (W2_of_ne m ρ c main_arg8 (by decide)).trans (W1_main_arg8 m ρ c)

theorem W2_main_arg9 : W2 m ρ c (Proc.devRef .tc main_arg9) = (m ((c : Thread nD τ).loc main_arg9)) :=
  (W2_of_ne m ρ c main_arg9 (by decide)).trans (W1_main_arg9 m ρ c)

theorem W2_main_arg10 : W2 m ρ c (Proc.devRef .tc main_arg10) = (m ((c : Thread nD τ).loc main_arg10)) :=
  (W2_of_ne m ρ c main_arg10 (by decide)).trans (W1_main_arg10 m ρ c)

theorem W2_main_arg11 : W2 m ρ c (Proc.devRef .tc main_arg11) = (m ((c : Thread nD τ).loc main_arg11)) :=
  (W2_of_ne m ρ c main_arg11 (by decide)).trans (W1_main_arg11 m ρ c)

theorem W2_main_arg12 : W2 m ρ c (Proc.devRef .tc main_arg12) = (m ((c : Thread nD τ).loc main_arg12)) :=
  (W2_of_ne m ρ c main_arg12 (by decide)).trans (W1_main_arg12 m ρ c)

theorem W2_main_arg13 : W2 m ρ c (Proc.devRef .tc main_arg13) = (m ((c : Thread nD τ).loc main_arg13)) :=
  (W2_of_ne m ρ c main_arg13 (by decide)).trans (W1_main_arg13 m ρ c)

theorem W2_main_arg14 : W2 m ρ c (Proc.devRef .tc main_arg14) = (m ((c : Thread nD τ).loc main_arg14)) :=
  (W2_of_ne m ρ c main_arg14 (by decide)).trans (W1_main_arg14 m ρ c)

theorem W2_main_v1 : W2 m ρ c (Proc.devRef .tc main_v1) = srcOf (m ((c : Thread nD τ).loc main_arg1)) :=
  (W2_of_ne m ρ c main_v1 (by decide)).trans (W1_main_v1 m ρ c)

theorem W2_main_v3 : W2 m ρ c (Proc.devRef .tc main_v3) = dstOf (m ((c : Thread nD τ).loc main_arg1)) :=
  (W2_of_ne m ρ c main_v3 (by decide)).trans (W1_main_v3 m ρ c)

/-! ## The contents at boundary 3 -/

theorem W3_main_arg2 : W3 m ρ c (Proc.devRef .tc main_arg2) = (m ((c : Thread nD τ).loc main_arg2)) := by
  show StableHlo.after hostOps1 (W2 m ρ c) (Proc.devRef .tc main_arg2) = _
  dsimp only [hostOps1]
  after_results_simp
  exact W2_main_arg2 m ρ c

theorem W3_main_arg3 : W3 m ρ c (Proc.devRef .tc main_arg3) = (m ((c : Thread nD τ).loc main_arg3)) := by
  show StableHlo.after hostOps1 (W2 m ρ c) (Proc.devRef .tc main_arg3) = _
  dsimp only [hostOps1]
  after_results_simp
  exact W2_main_arg3 m ρ c

theorem W3_main_arg4 : W3 m ρ c (Proc.devRef .tc main_arg4) = (m ((c : Thread nD τ).loc main_arg4)) := by
  show StableHlo.after hostOps1 (W2 m ρ c) (Proc.devRef .tc main_arg4) = _
  dsimp only [hostOps1]
  after_results_simp
  exact W2_main_arg4 m ρ c

theorem W3_main_arg5 : W3 m ρ c (Proc.devRef .tc main_arg5) = (m ((c : Thread nD τ).loc main_arg5)) := by
  show StableHlo.after hostOps1 (W2 m ρ c) (Proc.devRef .tc main_arg5) = _
  dsimp only [hostOps1]
  after_results_simp
  exact W2_main_arg5 m ρ c

theorem W3_main_arg6 : W3 m ρ c (Proc.devRef .tc main_arg6) = (m ((c : Thread nD τ).loc main_arg6)) := by
  show StableHlo.after hostOps1 (W2 m ρ c) (Proc.devRef .tc main_arg6) = _
  dsimp only [hostOps1]
  after_results_simp
  exact W2_main_arg6 m ρ c

theorem W3_main_arg7 : W3 m ρ c (Proc.devRef .tc main_arg7) = (m ((c : Thread nD τ).loc main_arg7)) := by
  show StableHlo.after hostOps1 (W2 m ρ c) (Proc.devRef .tc main_arg7) = _
  dsimp only [hostOps1]
  after_results_simp
  exact W2_main_arg7 m ρ c

theorem W3_main_arg8 : W3 m ρ c (Proc.devRef .tc main_arg8) = (m ((c : Thread nD τ).loc main_arg8)) := by
  show StableHlo.after hostOps1 (W2 m ρ c) (Proc.devRef .tc main_arg8) = _
  dsimp only [hostOps1]
  after_results_simp
  exact W2_main_arg8 m ρ c

theorem W3_main_arg9 : W3 m ρ c (Proc.devRef .tc main_arg9) = (m ((c : Thread nD τ).loc main_arg9)) := by
  show StableHlo.after hostOps1 (W2 m ρ c) (Proc.devRef .tc main_arg9) = _
  dsimp only [hostOps1]
  after_results_simp
  exact W2_main_arg9 m ρ c

theorem W3_main_arg10 : W3 m ρ c (Proc.devRef .tc main_arg10) = (m ((c : Thread nD τ).loc main_arg10)) := by
  show StableHlo.after hostOps1 (W2 m ρ c) (Proc.devRef .tc main_arg10) = _
  dsimp only [hostOps1]
  after_results_simp
  exact W2_main_arg10 m ρ c

theorem W3_main_arg11 : W3 m ρ c (Proc.devRef .tc main_arg11) = (m ((c : Thread nD τ).loc main_arg11)) := by
  show StableHlo.after hostOps1 (W2 m ρ c) (Proc.devRef .tc main_arg11) = _
  dsimp only [hostOps1]
  after_results_simp
  exact W2_main_arg11 m ρ c

theorem W3_main_arg12 : W3 m ρ c (Proc.devRef .tc main_arg12) = (m ((c : Thread nD τ).loc main_arg12)) := by
  show StableHlo.after hostOps1 (W2 m ρ c) (Proc.devRef .tc main_arg12) = _
  dsimp only [hostOps1]
  after_results_simp
  exact W2_main_arg12 m ρ c

theorem W3_main_arg13 : W3 m ρ c (Proc.devRef .tc main_arg13) = (m ((c : Thread nD τ).loc main_arg13)) := by
  show StableHlo.after hostOps1 (W2 m ρ c) (Proc.devRef .tc main_arg13) = _
  dsimp only [hostOps1]
  after_results_simp
  exact W2_main_arg13 m ρ c

theorem W3_main_arg14 : W3 m ρ c (Proc.devRef .tc main_arg14) = (m ((c : Thread nD τ).loc main_arg14)) := by
  show StableHlo.after hostOps1 (W2 m ρ c) (Proc.devRef .tc main_arg14) = _
  dsimp only [hostOps1]
  after_results_simp
  exact W2_main_arg14 m ρ c

theorem W3_main_v1 : W3 m ρ c (Proc.devRef .tc main_v1) = srcOf (m ((c : Thread nD τ).loc main_arg1)) := by
  show StableHlo.after hostOps1 (W2 m ρ c) (Proc.devRef .tc main_v1) = _
  dsimp only [hostOps1]
  after_results_simp
  exact W2_main_v1 m ρ c

theorem W3_main_v3 : W3 m ρ c (Proc.devRef .tc main_v3) = dstOf (m ((c : Thread nD τ).loc main_arg1)) := by
  show StableHlo.after hostOps1 (W2 m ρ c) (Proc.devRef .tc main_v3) = _
  dsimp only [hostOps1]
  after_results_simp
  exact W2_main_v3 m ρ c

/-! ## The contents at boundary 4 -/

theorem W4_main_arg2 : W4 m ρ c (Proc.devRef .tc main_arg2) = (m ((c : Thread nD τ).loc main_arg2)) :=
  (W4_of_ne m ρ c main_arg2 (by decide)).trans (W3_main_arg2 m ρ c)

theorem W4_main_arg3 : W4 m ρ c (Proc.devRef .tc main_arg3) = (m ((c : Thread nD τ).loc main_arg3)) :=
  (W4_of_ne m ρ c main_arg3 (by decide)).trans (W3_main_arg3 m ρ c)

theorem W4_main_arg4 : W4 m ρ c (Proc.devRef .tc main_arg4) = (m ((c : Thread nD τ).loc main_arg4)) :=
  (W4_of_ne m ρ c main_arg4 (by decide)).trans (W3_main_arg4 m ρ c)

theorem W4_main_arg5 : W4 m ρ c (Proc.devRef .tc main_arg5) = (m ((c : Thread nD τ).loc main_arg5)) :=
  (W4_of_ne m ρ c main_arg5 (by decide)).trans (W3_main_arg5 m ρ c)

theorem W4_main_arg6 : W4 m ρ c (Proc.devRef .tc main_arg6) = (m ((c : Thread nD τ).loc main_arg6)) :=
  (W4_of_ne m ρ c main_arg6 (by decide)).trans (W3_main_arg6 m ρ c)

theorem W4_main_arg7 : W4 m ρ c (Proc.devRef .tc main_arg7) = (m ((c : Thread nD τ).loc main_arg7)) :=
  (W4_of_ne m ρ c main_arg7 (by decide)).trans (W3_main_arg7 m ρ c)

theorem W4_main_arg8 : W4 m ρ c (Proc.devRef .tc main_arg8) = (m ((c : Thread nD τ).loc main_arg8)) :=
  (W4_of_ne m ρ c main_arg8 (by decide)).trans (W3_main_arg8 m ρ c)

theorem W4_main_arg9 : W4 m ρ c (Proc.devRef .tc main_arg9) = (m ((c : Thread nD τ).loc main_arg9)) :=
  (W4_of_ne m ρ c main_arg9 (by decide)).trans (W3_main_arg9 m ρ c)

theorem W4_main_arg10 : W4 m ρ c (Proc.devRef .tc main_arg10) = (m ((c : Thread nD τ).loc main_arg10)) :=
  (W4_of_ne m ρ c main_arg10 (by decide)).trans (W3_main_arg10 m ρ c)

theorem W4_main_arg11 : W4 m ρ c (Proc.devRef .tc main_arg11) = (m ((c : Thread nD τ).loc main_arg11)) :=
  (W4_of_ne m ρ c main_arg11 (by decide)).trans (W3_main_arg11 m ρ c)

theorem W4_main_arg12 : W4 m ρ c (Proc.devRef .tc main_arg12) = (m ((c : Thread nD τ).loc main_arg12)) :=
  (W4_of_ne m ρ c main_arg12 (by decide)).trans (W3_main_arg12 m ρ c)

theorem W4_main_arg13 : W4 m ρ c (Proc.devRef .tc main_arg13) = (m ((c : Thread nD τ).loc main_arg13)) :=
  (W4_of_ne m ρ c main_arg13 (by decide)).trans (W3_main_arg13 m ρ c)

theorem W4_main_arg14 : W4 m ρ c (Proc.devRef .tc main_arg14) = (m ((c : Thread nD τ).loc main_arg14)) :=
  (W4_of_ne m ρ c main_arg14 (by decide)).trans (W3_main_arg14 m ρ c)

theorem W4_main_v1 : W4 m ρ c (Proc.devRef .tc main_v1) = srcOf (m ((c : Thread nD τ).loc main_arg1)) :=
  (W4_of_ne m ρ c main_v1 (by decide)).trans (W3_main_v1 m ρ c)

theorem W4_main_v3 : W4 m ρ c (Proc.devRef .tc main_v3) = dstOf (m ((c : Thread nD τ).loc main_arg1)) :=
  (W4_of_ne m ρ c main_v3 (by decide)).trans (W3_main_v3 m ρ c)

/-! ## The contents at boundary 5 -/

theorem W5_main_arg11 : W5 m ρ c (Proc.devRef .tc main_arg11) = (m ((c : Thread nD τ).loc main_arg11)) := by
  show StableHlo.after hostOps2 (W4 m ρ c) (Proc.devRef .tc main_arg11) = _
  dsimp only [hostOps2]
  after_results_simp
  exact W4_main_arg11 m ρ c

theorem W5_main_arg12 : W5 m ρ c (Proc.devRef .tc main_arg12) = (m ((c : Thread nD τ).loc main_arg12)) := by
  show StableHlo.after hostOps2 (W4 m ρ c) (Proc.devRef .tc main_arg12) = _
  dsimp only [hostOps2]
  after_results_simp
  exact W4_main_arg12 m ρ c

theorem W5_main_arg13 : W5 m ρ c (Proc.devRef .tc main_arg13) = (m ((c : Thread nD τ).loc main_arg13)) := by
  show StableHlo.after hostOps2 (W4 m ρ c) (Proc.devRef .tc main_arg13) = _
  dsimp only [hostOps2]
  after_results_simp
  exact W4_main_arg13 m ρ c

theorem W5_main_arg14 : W5 m ρ c (Proc.devRef .tc main_arg14) = (m ((c : Thread nD τ).loc main_arg14)) := by
  show StableHlo.after hostOps2 (W4 m ρ c) (Proc.devRef .tc main_arg14) = _
  dsimp only [hostOps2]
  after_results_simp
  exact W4_main_arg14 m ρ c

/-! ## The contents at boundary 6 -/

theorem W6_main_arg11 : W6 m ρ c (Proc.devRef .tc main_arg11) = (m ((c : Thread nD τ).loc main_arg11)) :=
  (W6_of_ne m ρ c main_arg11 (by decide)).trans (W5_main_arg11 m ρ c)

theorem W6_main_arg12 : W6 m ρ c (Proc.devRef .tc main_arg12) = (m ((c : Thread nD τ).loc main_arg12)) :=
  (W6_of_ne m ρ c main_arg12 (by decide)).trans (W5_main_arg12 m ρ c)

theorem W6_main_arg13 : W6 m ρ c (Proc.devRef .tc main_arg13) = (m ((c : Thread nD τ).loc main_arg13)) :=
  (W6_of_ne m ρ c main_arg13 (by decide)).trans (W5_main_arg13 m ρ c)

theorem W6_main_arg14 : W6 m ρ c (Proc.devRef .tc main_arg14) = (m ((c : Thread nD τ).loc main_arg14)) :=
  (W6_of_ne m ρ c main_arg14 (by decide)).trans (W5_main_arg14 m ρ c)

/-! ## The contents at boundary 7 -/

theorem W7_main_arg11 : W7 m ρ c (Proc.devRef .tc main_arg11) = (m ((c : Thread nD τ).loc main_arg11)) := by
  show StableHlo.after hostOps3 (W6 m ρ c) (Proc.devRef .tc main_arg11) = _
  dsimp only [hostOps3]
  after_results_simp
  exact W6_main_arg11 m ρ c

theorem W7_main_arg13 : W7 m ρ c (Proc.devRef .tc main_arg13) = (m ((c : Thread nD τ).loc main_arg13)) := by
  show StableHlo.after hostOps3 (W6 m ρ c) (Proc.devRef .tc main_arg13) = _
  dsimp only [hostOps3]
  after_results_simp
  exact W6_main_arg13 m ρ c

end Cert.KCarry

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«122921_j10986526343328_1_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.KBody.lean ====
/-
  What the two kernel bodies compute on one block of rows, read at an entry on the extended reals.

  The layer body adds the block of features and the block of aggregated messages, multiplies by the first weight matrix
  (a matrix product into the zero accumulator: a plain sum over the contracted axis), adds the bias row, rectifies,
  multiplies by the second weight matrix, adds its bias row, subtracts the mean row, scales by the inverse square root of
  the variance row plus the constant and by the scale row, adds the shift row and rectifies. The changes of float format
  before each product are the identity on the extended reals, and a one-row operand spread down the block reads its
  row 0. So entry (p, q) of the body's result is the layer's formula at row p of the block: `Spec.ginAt`.
  The head body is the same with two products and one rectifier: `Spec.headAt`.
-/
import proofs.«122921_j10986526343328_1_alg».proof.Proof.Gen.KernelIdeal.Skeleton
import proofs.«122921_j10986526343328_1_alg».proof.Proof.LibMatmul2D
import proofs.«122921_j10986526343328_1_alg».proof.Proof.Spec
import Idealize.ShloMosaic.Lib.ValueLayout
import Idealize.ShloMosaic.Lib.Pipeline.Value

noncomputable section

namespace Cert.KBody

open Idealize.ShloMosaic Idealize.ShloMosaic.ValueIdx Cert.KernelIdeal Cert.KernelIdeal.Gen

/-- The inverse square root of a vector, at an entry. -/
theorem rsqrt_apply {s : Shape} {φ : FTy} (v : FVec Ideal s φ) (i : s.Idx) : rsqrt v i = FloatOps.rsqrt (v i) := rfl

/-- The layer body's product of a [2000, 128] block with a [128, 128] matrix, at an entry. -/
theorem mm128 {φ₁ φ₂ : FTy} (X : FVec Ideal S2000x128 φ₁) (W : FVec Ideal S128x128 φ₂) (p : Fin 2000) (k : Fin 128) :
    matmul dot_S2000x128_S128x128_S2000x128_1_0_0_1_n_n none X W (constant S2000x128 .f32 0x00000000#32) (ix2 p k)
      = ∑ i : Fin 128, X (ix2 p i) * W (ix2 i k) :=
  Cert.LibMatmul2D.rows_cols dot_S2000x128_S128x128_S2000x128_1_0_0_1_n_n.wf none X W p k

/-- Entry (p, q) of the layer body's stored value is the layer's formula at row `p` of the block. -/
theorem gin_body (x0 x1 : Vec Ideal S2000x128 .f32) (x2 : Vec Ideal S128x128 .f32) (x3 : Vec Ideal S1x128 .f32)
    (x4 : Vec Ideal S128x128 .f32) (x5 x6 x7 x8 x9 : Vec Ideal S1x128 .f32) (p : Fin 2000) (q : Fin 128) :
    k0_pay1 (k0_pay2 x0 x1 x2 x3 x4 x5 x9 x8) (k0_pay3 x6) x7 (ix2 p q)
      = Cert.Spec.ginAt x0 x1 x2 x3 x4 x5 x6 x7 x8 x9 p q := by
  unfold k0_pay1 k0_pay2 k0_pay3 Cert.Spec.ginAt Cert.Spec.preNormAt Cert.Spec.hiddenAt
  simp only [maximumf_apply, addf_apply, mulf_apply, subf_apply, broadcast_apply, truncf_apply, mm128,
    shapeCast_self, broadcastTo_1b_ab_apply, rsqrt_apply, Ideal.rsqrt_def, Ideal.ofBits_def]

/-- The second layer's body: the same formula. -/
theorem gin_body1 (x0 x1 : Vec Ideal S2000x128 .f32) (x2 : Vec Ideal S128x128 .f32) (x3 : Vec Ideal S1x128 .f32)
    (x4 : Vec Ideal S128x128 .f32) (x5 x6 x7 x8 x9 : Vec Ideal S1x128 .f32) (p : Fin 2000) (q : Fin 128) :
    k1_pay1 (k1_pay2 x0 x1 x2 x3 x4 x5 x9 x8) x6 x7 (ix2 p q)
      = Cert.Spec.ginAt x0 x1 x2 x3 x4 x5 x6 x7 x8 x9 p q := by
  unfold k1_pay1 k1_pay2 Cert.Spec.ginAt Cert.Spec.preNormAt Cert.Spec.hiddenAt
  simp only [maximumf_apply, addf_apply, mulf_apply, subf_apply, broadcast_apply, truncf_apply, mm128,
    shapeCast_self, broadcastTo_1b_ab_apply, rsqrt_apply, Ideal.rsqrt_def, Ideal.ofBits_def]

/-- The third layer's body: the same formula. -/
theorem gin_body2 (x0 x1 : Vec Ideal S2000x128 .f32) (x2 : Vec Ideal S128x128 .f32) (x3 : Vec Ideal S1x128 .f32)
    (x4 : Vec Ideal S128x128 .f32) (x5 x6 x7 x8 x9 : Vec Ideal S1x128 .f32) (p : Fin 2000) (q : Fin 128) :
    k2_pay1 (k2_pay2 x0 x1 x2 x3 x4 x5 x9 x8) x6 x7 (ix2 p q)
      = Cert.Spec.ginAt x0 x1 x2 x3 x4 x5 x6 x7 x8 x9 p q := by
  unfold k2_pay1 k2_pay2 Cert.Spec.ginAt Cert.Spec.preNormAt Cert.Spec.hiddenAt
  simp only [maximumf_apply, addf_apply, mulf_apply, subf_apply, broadcast_apply, truncf_apply, mm128,
    shapeCast_self, broadcastTo_1b_ab_apply, rsqrt_apply, Ideal.rsqrt_def, Ideal.ofBits_def]

/-- The head body's product of a [2000, 128] block with the [128, 256] matrix, at an entry. -/
theorem mm256 {φ₁ φ₂ : FTy} (X : FVec Ideal S2000x128 φ₁) (W : FVec Ideal S128x256 φ₂) (p : Fin 2000) (k : Fin 256) :
    matmul dot_S2000x128_S128x256_S2000x256_1_0_0_1_n_n none X W (constant S2000x256 .f32 0x00000000#32) (ix2 p k)
      = ∑ i : Fin 128, X (ix2 p i) * W (ix2 i k) :=
  Cert.LibMatmul2D.rows_cols dot_S2000x128_S128x256_S2000x256_1_0_0_1_n_n.wf none X W p k

/-- The head body's product of a [2000, 256] block with the [256, 6] matrix, at an entry. -/
theorem mm6 {φ₁ φ₂ : FTy} (X : FVec Ideal S2000x256 φ₁) (W : FVec Ideal S256x6 φ₂) (p : Fin 2000) (k : Fin 6) :
    matmul dot_S2000x256_S256x6_S2000x6_1_0_0_1_n_n none X W (constant S2000x6 .f32 0x00000000#32) (ix2 p k)
      = ∑ i : Fin 256, X (ix2 p i) * W (ix2 i k) :=
  Cert.LibMatmul2D.rows_cols dot_S2000x256_S256x6_S2000x6_1_0_0_1_n_n.wf none X W p k

/-- Entry (p, q) of the head body's stored value is the head's formula at row `p` of the block. -/
theorem head_body (x0 : Vec Ideal S2000x128 .f32) (x1 : Vec Ideal S128x256 .f32) (x2 : Vec Ideal S1x256 .f32)
    (x3 : Vec Ideal S256x6 .f32) (x4 : Vec Ideal S1x6 .f32) (p : Fin 2000) (q : Fin 6) :
    k3_pay1 x0 x1 x2 x3 x4 (ix2 p q) = Cert.Spec.headAt x0 x1 x2 x3 x4 p q := by
  unfold k3_pay1 Cert.Spec.headAt
  simp only [maximumf_apply, addf_apply, broadcast_apply, truncf_apply, mm256, mm6,
    shapeCast_self, broadcastTo_1b_ab_apply, Ideal.ofBits_def]

/-- `gin_body` at any index of the block. -/
theorem gin_body_at (x0 x1 : Vec Ideal S2000x128 .f32) (x2 : Vec Ideal S128x128 .f32) (x3 : Vec Ideal S1x128 .f32)
    (x4 : Vec Ideal S128x128 .f32) (x5 x6 x7 x8 x9 : Vec Ideal S1x128 .f32) (j : S2000x128.Idx) :
    k0_pay1 (k0_pay2 x0 x1 x2 x3 x4 x5 x9 x8) (k0_pay3 x6) x7 j = Cert.Spec.ginAt x0 x1 x2 x3 x4 x5 x6 x7 x8 x9 (j 0) (j 1) := by
  obtain ⟨p, q, rfl⟩ : ∃ (p : Fin 2000) (q : Fin 128), j = ix2 p q := ⟨j 0, j 1, eq_ix2 j⟩
  exact gin_body _ _ _ _ _ _ _ _ _ _ p q

/-- `gin_body1` at any index of the block. -/
theorem gin_body1_at (x0 x1 : Vec Ideal S2000x128 .f32) (x2 : Vec Ideal S128x128 .f32) (x3 : Vec Ideal S1x128 .f32)
    (x4 : Vec Ideal S128x128 .f32) (x5 x6 x7 x8 x9 : Vec Ideal S1x128 .f32) (j : S2000x128.Idx) :
    k1_pay1 (k1_pay2 x0 x1 x2 x3 x4 x5 x9 x8) x6 x7 j = Cert.Spec.ginAt x0 x1 x2 x3 x4 x5 x6 x7 x8 x9 (j 0) (j 1) := by
  obtain ⟨p, q, rfl⟩ : ∃ (p : Fin 2000) (q : Fin 128), j = ix2 p q := ⟨j 0, j 1, eq_ix2 j⟩
  exact gin_body1 _ _ _ _ _ _ _ _ _ _ p q

/-- `gin_body2` at any index of the block. -/
theorem gin_body2_at (x0 x1 : Vec Ideal S2000x128 .f32) (x2 : Vec Ideal S128x128 .f32) (x3 : Vec Ideal S1x128 .f32)
    (x4 : Vec Ideal S128x128 .f32) (x5 x6 x7 x8 x9 : Vec Ideal S1x128 .f32) (j : S2000x128.Idx) :
    k2_pay1 (k2_pay2 x0 x1 x2 x3 x4 x5 x9 x8) x6 x7 j = Cert.Spec.ginAt x0 x1 x2 x3 x4 x5 x6 x7 x8 x9 (j 0) (j 1) := by
  obtain ⟨p, q, rfl⟩ : ∃ (p : Fin 2000) (q : Fin 128), j = ix2 p q := ⟨j 0, j 1, eq_ix2 j⟩
  exact gin_body2 _ _ _ _ _ _ _ _ _ _ p q

/-- `head_body` at any index of the block. -/
theorem head_body_at (x0 : Vec Ideal S2000x128 .f32) (x1 : Vec Ideal S128x256 .f32) (x2 : Vec Ideal S1x256 .f32)
    (x3 : Vec Ideal S256x6 .f32) (x4 : Vec Ideal S1x6 .f32) (j : S2000x6.Idx) :
    k3_pay1 x0 x1 x2 x3 x4 j = Cert.Spec.headAt x0 x1 x2 x3 x4 (j 0) (j 1) := by
  obtain ⟨p, q, rfl⟩ : ∃ (p : Fin 2000) (q : Fin 6), j = ix2 p q := ⟨j 0, j 1, eq_ix2 j⟩
  exact head_body _ _ _ _ _ p q

end Cert.KBody

end
-- ==== Proof.KLayer0.lean ====
/-
  The first layer's kernel over its fifty blocks of 2000 rows: the array it leaves.

  At grid point t the feature and message windows hold rows 2000 t .. 2000 t + 1999 of their arrays and every parameter
  window holds its whole array; the body's result for the block (`Cert.KBody`) is written back to the same rows of the
  output. Row p of the block's result is the layer's formula at row p of the block, and that row depends on the same
  row of the features and messages only, so the block written back is rows 2000 t .. of the layer applied to the whole
  arrays. The fifty blocks cover the 100000 rows, so the output array ends holding the layer of the arrays the region
  was entered with — whatever those arrays are.
-/
import proofs.«122921_j10986526343328_1_alg».proof.Proof.Gen.KernelIdeal.Frame
import proofs.«122921_j10986526343328_1_alg».proof.Proof.KBody
import Idealize.ShloMosaic.Lib.Pipeline.Value

set_option maxRecDepth 16384

noncomputable section

namespace Cert.KLayer0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block indices of every window at every grid point: the row windows move with the point, the others stay. -/
theorem idx : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = t.val
    ∧ win0_10.index t (1 : Fin 2) = 0 :=
  (by decide +kernel : ∀ t : Fin grid0.N, _)

/-- Row `p` of block `t` is row `2000 t + p` of the array. -/
def rowOf (t : Fin cfg0.N) (p : Fin 2000) : Fin 100000 :=
  ⟨2000 * t.val + p.val, by have h : t.val < 50 := lt_of_lt_of_eq t.isLt N_0; have := p.isLt; omega⟩

/-- The layer of the arrays the region finds. -/
abbrev layer (c : Dev nD) : S100000x128.Idx → EReal :=
  Cert.Spec.gin (V c main_arg0) (V c main_v16) (V c main_v18) (V c main_v33) (V c main_v22) (V c main_v34)
    (V c main_v35) (V c main_v36) (V c main_v37) (V c main_v38)

/-- What point `t` writes back is block `t` of the layer of the arrays. -/
theorem flushed_eq (c : Dev nD) (t : Fin cfg0.N) :
    (dat0 V c).flushed 10 t = ((cfg0.win 10).blk t).view.read (Elt Ideal) (layer V c) := by
  show (cfg0.win 10).cut (grid0.coords t) ((dat0 V c).after 10 t) = _
  rw [after0_10]
  unfold out0_10
  rw [View.canon_unit_zero hz]
  simp only [View.ld_unit_zero (S := S2000x128) hz, View.ld_unit_zero (S := S128x128) hz, View.ld_unit_zero (S := S1x128) hz]
  obtain ⟨r0, l0, r1, l1, r2, l2, r3, l3, r4, l4, r5, l5, r6, l6, r7, l7, r8, l8, r9, l9, r10, l10⟩ := idx t
  funext j
  show k0_pay1 (k0_pay2 (iblk0 V c 0 t) (iblk0 V c 1 t) (iblk0 V c 2 t) (iblk0 V c 3 t) (iblk0 V c 4 t) (iblk0 V c 5 t) (iblk0 V c 9 t) (iblk0 V c 8 t)) (k0_pay3 (iblk0 V c 6 t)) (iblk0 V c 7 t) j
      = layer V c (((cfg0.win 10).blk t).view.emb j)
  have hemb : ((cfg0.win 10).blk t).view.emb j = ix2 (rowOf t (j 0)) (j 1) := by
    funext a; apply Fin.ext
    match a with
    | ⟨0, _⟩ => show win0_10.index t (0 : Fin 2) * 2000 + 1 * (j 0).val = 2000 * t.val + (j 0).val; omega
    | ⟨1, _⟩ => show win0_10.index t (1 : Fin 2) * 128 + 1 * (j 1).val = (j 1).val; omega
  rw [hemb]
  refine (Cert.KBody.gin_body_at _ _ _ _ _ _ _ _ _ _ j).trans ?_
  show _ = Cert.Spec.ginAt _ _ _ _ _ _ _ _ _ _ (rowOf t (j 0)) (j 1)
  exact Cert.Spec.ginAt_congr _ _ _ _ _ _ _ _ _ _ _ _ _ _ _ _ _ _ _ _ (j 0) (rowOf t (j 0)) (j 1)
    (fun j' => by
      show V c main_arg0 (((cfg0.win 0).blk t).view.emb (ix2 (j 0) j')) = V c main_arg0 (ix2 (rowOf t (j 0)) j')
      refine congrArg _ (funext fun a => Fin.ext ?_)
      match a with
      | ⟨0, _⟩ => show win0_0.index t (0 : Fin 2) * 2000 + 1 * (j 0).val = 2000 * t.val + (j 0).val; omega
      | ⟨1, _⟩ => show win0_0.index t (1 : Fin 2) * 128 + 1 * j'.val = j'.val; omega)
    (fun j' => by
      show V c main_v16 (((cfg0.win 1).blk t).view.emb (ix2 (j 0) j')) = V c main_v16 (ix2 (rowOf t (j 0)) j')
      refine congrArg _ (funext fun a => Fin.ext ?_)
      match a with
      | ⟨0, _⟩ => show win0_1.index t (0 : Fin 2) * 2000 + 1 * (j 0).val = 2000 * t.val + (j 0).val; omega
      | ⟨1, _⟩ => show win0_1.index t (1 : Fin 2) * 128 + 1 * j'.val = j'.val; omega)
    (fun y => by
      show V c main_v18 (((cfg0.win 2).blk t).view.emb y) = V c main_v18 y
      refine congrArg _ (funext fun a => Fin.ext ?_)
      match a with
      | ⟨0, _⟩ => show win0_2.index t (0 : Fin 2) * 128 + 1 * (y 0).val = (y 0).val; omega
      | ⟨1, _⟩ => show win0_2.index t (1 : Fin 2) * 128 + 1 * (y 1).val = (y 1).val; omega)
    (fun y => by
      show V c main_v33 (((cfg0.win 3).blk t).view.emb y) = V c main_v33 y
      refine congrArg _ (funext fun a => Fin.ext ?_)
      match a with
      | ⟨0, _⟩ => show win0_3.index t (0 : Fin 2) * 1 + 1 * (y 0).val = (y 0).val; omega
      | ⟨1, _⟩ => show win0_3.index t (1 : Fin 2) * 128 + 1 * (y 1).val = (y 1).val; omega)
    (fun y => by
      show V c main_v22 (((cfg0.win 4).blk t).view.emb y) = V c main_v22 y
      refine congrArg _ (funext fun a => Fin.ext ?_)
      match a with
      | ⟨0, _⟩ => show win0_4.index t (0 : Fin 2) * 128 + 1 * (y 0).val = (y 0).val; omega
      | ⟨1, _⟩ => show win0_4.index t (1 : Fin 2) * 128 + 1 * (y 1).val = (y 1).val; omega)
    (fun y => by
      show V c main_v34 (((cfg0.win 5).blk t).view.emb y) = V c main_v34 y
      refine congrArg _ (funext fun a => Fin.ext ?_)
      match a with
      | ⟨0, _⟩ => show win0_5.index t (0 : Fin 2) * 1 + 1 * (y 0).val = (y 0).val; omega
      | ⟨1, _⟩ => show win0_5.index t (1 : Fin 2) * 128 + 1 * (y 1).val = (y 1).val; omega)
    (fun y => by
      show V c main_v35 (((cfg0.win 6).blk t).view.emb y) = V c main_v35 y
      refine congrArg _ (funext fun a => Fin.ext ?_)
      match a with
      | ⟨0, _⟩ => show win0_6.index t (0 : Fin 2) * 1 + 1 * (y 0).val = (y 0).val; omega
      | ⟨1, _⟩ => show win0_6.index t (1 : Fin 2) * 128 + 1 * (y 1).val = (y 1).val; omega)
    (fun y => by
      show V c main_v36 (((cfg0.win 7).blk t).view.emb y) = V c main_v36 y
      refine congrArg _ (funext fun a => Fin.ext ?_)
      match a with
      | ⟨0, _⟩ => show win0_7.index t (0 : Fin 2) * 1 + 1 * (y 0).val = (y 0).val; omega
      | ⟨1, _⟩ => show win0_7.index t (1 : Fin 2) * 128 + 1 * (y 1).val = (y 1).val; omega)
    (fun y => by
      show V c main_v37 (((cfg0.win 8).blk t).view.emb y) = V c main_v37 y
      refine congrArg _ (funext fun a => Fin.ext ?_)
      match a with
      | ⟨0, _⟩ => show win0_8.index t (0 : Fin 2) * 1 + 1 * (y 0).val = (y 0).val; omega
      | ⟨1, _⟩ => show win0_8.index t (1 : Fin 2) * 128 + 1 * (y 1).val = (y 1).val; omega)
    (fun y => by
      show V c main_v38 (((cfg0.win 9).blk t).view.emb y) = V c main_v38 y
      refine congrArg _ (funext fun a => Fin.ext ?_)
      match a with
      | ⟨0, _⟩ => show win0_9.index t (0 : Fin 2) * 1 + 1 * (y 0).val = (y 0).val; omega
      | ⟨1, _⟩ => show win0_9.index t (1 : Fin 2) * 128 + 1 * (y 1).val = (y 1).val; omega)

/-- An index of the array is in point `t`'s block iff each coordinate is in the block's range on its axis. -/
theorem mem_blk (t : Fin cfg0.N) (i : S100000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v39).slice (win0_10.rect t)).set ↔ _
  rw [View.set_slice_whole, Rect.mem_set_unit]
  exact Iff.rfl

/-- Every row of the array is in the block of the point its row number divided by 2000 names. -/
theorem cover (i : S100000x128.Idx) :
    ∃ t : Fin cfg0.N, (cfg0.win 10).flush t = true ∧ i ∈ ((cfg0.win 10).blk t).view.set := by
  have hN : cfg0.N = 50 := N_0
  have hi : (i 0).val < 100000 := (i 0).isLt
  have h1 : (i 1).val < 128 := (i 1).isLt
  have ht : (i 0).val / 2000 < cfg0.N := by rw [hN]; omega
  obtain ⟨r0, l0, r1, l1, r2, l2, r3, l3, r4, l4, r5, l5, r6, l6, r7, l7, r8, l8, r9, l9, r10, l10⟩ := idx ⟨(i 0).val / 2000, ht⟩
  refine ⟨⟨(i 0).val / 2000, ht⟩, flush0_10 _, ?_⟩
  rw [mem_blk]
  intro a
  match a with
  | ⟨0, _⟩ =>
    show win0_10.index ⟨(i 0).val / 2000, ht⟩ (0 : Fin 2) * 2000 ≤ (i 0).val ∧ (i 0).val < win0_10.index ⟨(i 0).val / 2000, ht⟩ (0 : Fin 2) * 2000 + 2000
    rw [r10]; show (i 0).val / 2000 * 2000 ≤ (i 0).val ∧ (i 0).val < (i 0).val / 2000 * 2000 + 2000; omega
  | ⟨1, _⟩ =>
    show win0_10.index ⟨(i 0).val / 2000, ht⟩ (1 : Fin 2) * 128 ≤ (i 1).val ∧ (i 1).val < win0_10.index ⟨(i 0).val / 2000, ht⟩ (1 : Fin 2) * 128 + 128
    rw [l10]; omega

/-- The output array after the region is the layer of the arrays the region was entered with. -/
theorem final (c : Dev nD) : (dat0 V c).arrAt 10 cfg0.N = layer V c :=
  (dat0 V c).arrAt_eq_of_cover 10 (layer V c) (fun t _ => flushed_eq V c t) cover

end Cert.KLayer0

end
-- ==== Proof.KLayer1.lean ====
/-
  The second layer's kernel over its fifty blocks of 2000 rows: the array it leaves.

  At grid point t the feature and message windows hold rows 2000 t .. 2000 t + 1999 of their arrays and every parameter
  window holds its whole array; the body's result for the block (`Cert.KBody`) is written back to the same rows of the
  output. Row p of the block's result is the layer's formula at row p of the block, and that row depends on the same
  row of the features and messages only, so the block written back is rows 2000 t .. of the layer applied to the whole
  arrays. The fifty blocks cover the 100000 rows, so the output array ends holding the layer of the arrays the region
  was entered with — whatever those arrays are.
-/
import proofs.«122921_j10986526343328_1_alg».proof.Proof.Gen.KernelIdeal.Frame
import proofs.«122921_j10986526343328_1_alg».proof.Proof.KBody
import Idealize.ShloMosaic.Lib.Pipeline.Value

set_option maxRecDepth 16384

noncomputable section

namespace Cert.KLayer1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block indices of every window at every grid point: the row windows move with the point, the others stay. -/
theorem idx : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = t.val
    ∧ win1_10.index t (1 : Fin 2) = 0 :=
  (by decide +kernel : ∀ t : Fin grid1.N, _)

/-- Row `p` of block `t` is row `2000 t + p` of the array. -/
def rowOf (t : Fin cfg1.N) (p : Fin 2000) : Fin 100000 :=
  ⟨2000 * t.val + p.val, by have h : t.val < 50 := lt_of_lt_of_eq t.isLt N_1; have := p.isLt; omega⟩

/-- The layer of the arrays the region finds. -/
abbrev layer (c : Dev nD) : S100000x128.Idx → EReal :=
  Cert.Spec.gin (V c main_v39) (V c main_v52) (V c main_v54) (V c main_v69) (V c main_v58) (V c main_v70)
    (V c main_v71) (V c main_v72) (V c main_v73) (V c main_v74)

/-- What point `t` writes back is block `t` of the layer of the arrays. -/
theorem flushed_eq (c : Dev nD) (t : Fin cfg1.N) :
    (dat1 V c).flushed 10 t = ((cfg1.win 10).blk t).view.read (Elt Ideal) (layer V c) := by
  show (cfg1.win 10).cut (grid1.coords t) ((dat1 V c).after 10 t) = _
  rw [after1_10]
  unfold out1_10
  rw [View.canon_unit_zero hz]
  simp only [View.ld_unit_zero (S := S2000x128) hz, View.ld_unit_zero (S := S128x128) hz, View.ld_unit_zero (S := S1x128) hz]
  obtain ⟨r0, l0, r1, l1, r2, l2, r3, l3, r4, l4, r5, l5, r6, l6, r7, l7, r8, l8, r9, l9, r10, l10⟩ := idx t
  funext j
  show k1_pay1 (k1_pay2 (iblk1 V c 0 t) (iblk1 V c 1 t) (iblk1 V c 2 t) (iblk1 V c 3 t) (iblk1 V c 4 t) (iblk1 V c 5 t) (iblk1 V c 9 t) (iblk1 V c 8 t)) (iblk1 V c 6 t) (iblk1 V c 7 t) j
      = layer V c (((cfg1.win 10).blk t).view.emb j)
  have hemb : ((cfg1.win 10).blk t).view.emb j = ix2 (rowOf t (j 0)) (j 1) := by
    funext a; apply Fin.ext
    match a with
    | ⟨0, _⟩ => show win1_10.index t (0 : Fin 2) * 2000 + 1 * (j 0).val = 2000 * t.val + (j 0).val; omega
    | ⟨1, _⟩ => show win1_10.index t (1 : Fin 2) * 128 + 1 * (j 1).val = (j 1).val; omega
  rw [hemb]
  refine (Cert.KBody.gin_body1_at _ _ _ _ _ _ _ _ _ _ j).trans ?_
  show _ = Cert.Spec.ginAt _ _ _ _ _ _ _ _ _ _ (rowOf t (j 0)) (j 1)
  exact Cert.Spec.ginAt_congr _ _ _ _ _ _ _ _ _ _ _ _ _ _ _ _ _ _ _ _ (j 0) (rowOf t (j 0)) (j 1)
    (fun j' => by
      show V c main_v39 (((cfg1.win 0).blk t).view.emb (ix2 (j 0) j')) = V c main_v39 (ix2 (rowOf t (j 0)) j')
      refine congrArg _ (funext fun a => Fin.ext ?_)
      match a with
      | ⟨0, _⟩ => show win1_0.index t (0 : Fin 2) * 2000 + 1 * (j 0).val = 2000 * t.val + (j 0).val; omega
      | ⟨1, _⟩ => show win1_0.index t (1 : Fin 2) * 128 + 1 * j'.val = j'.val; omega)
    (fun j' => by
      show V c main_v52 (((cfg1.win 1).blk t).view.emb (ix2 (j 0) j')) = V c main_v52 (ix2 (rowOf t (j 0)) j')
      refine congrArg _ (funext fun a => Fin.ext ?_)
      match a with
      | ⟨0, _⟩ => show win1_1.index t (0 : Fin 2) * 2000 + 1 * (j 0).val = 2000 * t.val + (j 0).val; omega
      | ⟨1, _⟩ => show win1_1.index t (1 : Fin 2) * 128 + 1 * j'.val = j'.val; omega)
    (fun y => by
      show V c main_v54 (((cfg1.win 2).blk t).view.emb y) = V c main_v54 y
      refine congrArg _ (funext fun a => Fin.ext ?_)
      match a with
      | ⟨0, _⟩ => show win1_2.index t (0 : Fin 2) * 128 + 1 * (y 0).val = (y 0).val; omega
      | ⟨1, _⟩ => show win1_2.index t (1 : Fin 2) * 128 + 1 * (y 1).val = (y 1).val; omega)
    (fun y => by
      show V c main_v69 (((cfg1.win 3).blk t).view.emb y) = V c main_v69 y
      refine congrArg _ (funext fun a => Fin.ext ?_)
      match a with
      | ⟨0, _⟩ => show win1_3.index t (0 : Fin 2) * 1 + 1 * (y 0).val = (y 0).val; omega
      | ⟨1, _⟩ => show win1_3.index t (1 : Fin 2) * 128 + 1 * (y 1).val = (y 1).val; omega)
    (fun y => by
      show V c main_v58 (((cfg1.win 4).blk t).view.emb y) = V c main_v58 y
      refine congrArg _ (funext fun a => Fin.ext ?_)
      match a with
      | ⟨0, _⟩ => show win1_4.index t (0 : Fin 2) * 128 + 1 * (y 0).val = (y 0).val; omega
      | ⟨1, _⟩ => show win1_4.index t (1 : Fin 2) * 128 + 1 * (y 1).val = (y 1).val; omega)
    (fun y => by
      show V c main_v70 (((cfg1.win 5).blk t).view.emb y) = V c main_v70 y
      refine congrArg _ (funext fun a => Fin.ext ?_)
      match a with
      | ⟨0, _⟩ => show win1_5.index t (0 : Fin 2) * 1 + 1 * (y 0).val = (y 0).val; omega
      | ⟨1, _⟩ => show win1_5.index t (1 : Fin 2) * 128 + 1 * (y 1).val = (y 1).val; omega)
    (fun y => by
      show V c main_v71 (((cfg1.win 6).blk t).view.emb y) = V c main_v71 y
      refine congrArg _ (funext fun a => Fin.ext ?_)
      match a with
      | ⟨0, _⟩ => show win1_6.index t (0 : Fin 2) * 1 + 1 * (y 0).val = (y 0).val; omega
      | ⟨1, _⟩ => show win1_6.index t (1 : Fin 2) * 128 + 1 * (y 1).val = (y 1).val; omega)
    (fun y => by
      show V c main_v72 (((cfg1.win 7).blk t).view.emb y) = V c main_v72 y
      refine congrArg _ (funext fun a => Fin.ext ?_)
      match a with
      | ⟨0, _⟩ => show win1_7.index t (0 : Fin 2) * 1 + 1 * (y 0).val = (y 0).val; omega
      | ⟨1, _⟩ => show win1_7.index t (1 : Fin 2) * 128 + 1 * (y 1).val = (y 1).val; omega)
    (fun y => by
      show V c main_v73 (((cfg1.win 8).blk t).view.emb y) = V c main_v73 y
      refine congrArg _ (funext fun a => Fin.ext ?_)
      match a with
      | ⟨0, _⟩ => show win1_8.index t (0 : Fin 2) * 1 + 1 * (y 0).val = (y 0).val; omega
      | ⟨1, _⟩ => show win1_8.index t (1 : Fin 2) * 128 + 1 * (y 1).val = (y 1).val; omega)
    (fun y => by
      show V c main_v74 (((cfg1.win 9).blk t).view.emb y) = V c main_v74 y
      refine congrArg _ (funext fun a => Fin.ext ?_)
      match a with
      | ⟨0, _⟩ => show win1_9.index t (0 : Fin 2) * 1 + 1 * (y 0).val = (y 0).val; omega
      | ⟨1, _⟩ => show win1_9.index t (1 : Fin 2) * 128 + 1 * (y 1).val = (y 1).val; omega)

/-- An index of the array is in point `t`'s block iff each coordinate is in the block's range on its axis. -/
theorem mem_blk (t : Fin cfg1.N) (i : S100000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v75).slice (win1_10.rect t)).set ↔ _
  rw [View.set_slice_whole, Rect.mem_set_unit]
  exact Iff.rfl

/-- Every row of the array is in the block of the point its row number divided by 2000 names. -/
theorem cover (i : S100000x128.Idx) :
    ∃ t : Fin cfg1.N, (cfg1.win 10).flush t = true ∧ i ∈ ((cfg1.win 10).blk t).view.set := by
  have hN : cfg1.N = 50 := N_1
  have hi : (i 0).val < 100000 := (i 0).isLt
  have h1 : (i 1).val < 128 := (i 1).isLt
  have ht : (i 0).val / 2000 < cfg1.N := by rw [hN]; omega
  obtain ⟨r0, l0, r1, l1, r2, l2, r3, l3, r4, l4, r5, l5, r6, l6, r7, l7, r8, l8, r9, l9, r10, l10⟩ := idx ⟨(i 0).val / 2000, ht⟩
  refine ⟨⟨(i 0).val / 2000, ht⟩, flush1_10 _, ?_⟩
  rw [mem_blk]
  intro a
  match a with
  | ⟨0, _⟩ =>
    show win1_10.index ⟨(i 0).val / 2000, ht⟩ (0 : Fin 2) * 2000 ≤ (i 0).val ∧ (i 0).val < win1_10.index ⟨(i 0).val / 2000, ht⟩ (0 : Fin 2) * 2000 + 2000
    rw [r10]; show (i 0).val / 2000 * 2000 ≤ (i 0).val ∧ (i 0).val < (i 0).val / 2000 * 2000 + 2000; omega
  | ⟨1, _⟩ =>
    show win1_10.index ⟨(i 0).val / 2000, ht⟩ (1 : Fin 2) * 128 ≤ (i 1).val ∧ (i 1).val < win1_10.index ⟨(i 0).val / 2000, ht⟩ (1 : Fin 2) * 128 + 128
    rw [l10]; omega

/-- The output array after the region is the layer of the arrays the region was entered with. -/
theorem final (c : Dev nD) : (dat1 V c).arrAt 10 cfg1.N = layer V c :=
  (dat1 V c).arrAt_eq_of_cover 10 (layer V c) (fun t _ => flushed_eq V c t) cover

end Cert.KLayer1

end
-- ==== Proof.KLayer2.lean ====
/-
  The third layer's kernel over its fifty blocks of 2000 rows: the array it leaves.

  At grid point t the feature and message windows hold rows 2000 t .. 2000 t + 1999 of their arrays and every parameter
  window holds its whole array; the body's result for the block (`Cert.KBody`) is written back to the same rows of the
  output. Row p of the block's result is the layer's formula at row p of the block, and that row depends on the same
  row of the features and messages only, so the block written back is rows 2000 t .. of the layer applied to the whole
  arrays. The fifty blocks cover the 100000 rows, so the output array ends holding the layer of the arrays the region
  was entered with — whatever those arrays are.
-/
import proofs.«122921_j10986526343328_1_alg».proof.Proof.Gen.KernelIdeal.Frame
import proofs.«122921_j10986526343328_1_alg».proof.Proof.KBody
import Idealize.ShloMosaic.Lib.Pipeline.Value

set_option maxRecDepth 16384

noncomputable section

namespace Cert.KLayer2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block indices of every window at every grid point: the row windows move with the point, the others stay. -/
theorem idx : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = t.val
    ∧ win2_10.index t (1 : Fin 2) = 0 :=
  (by decide +kernel : ∀ t : Fin grid2.N, _)

/-- Row `p` of block `t` is row `2000 t + p` of the array. -/
def rowOf (t : Fin cfg2.N) (p : Fin 2000) : Fin 100000 :=
  ⟨2000 * t.val + p.val, by have h : t.val < 50 := lt_of_lt_of_eq t.isLt N_2; have := p.isLt; omega⟩

/-- The layer of the arrays the region finds. -/
abbrev layer (c : Dev nD) : S100000x128.Idx → EReal :=
  Cert.Spec.gin (V c main_v75) (V c main_v88) (V c main_v90) (V c main_v105) (V c main_v94) (V c main_v106)
    (V c main_v107) (V c main_v108) (V c main_v109) (V c main_v110)

/-- What point `t` writes back is block `t` of the layer of the arrays. -/
theorem flushed_eq (c : Dev nD) (t : Fin cfg2.N) :
    (dat2 V c).flushed 10 t = ((cfg2.win 10).blk t).view.read (Elt Ideal) (layer V c) := by
  show (cfg2.win 10).cut (grid2.coords t) ((dat2 V c).after 10 t) = _
  rw [after2_10]
  unfold out2_10
  rw [View.canon_unit_zero hz]
  simp only [View.ld_unit_zero (S := S2000x128) hz, View.ld_unit_zero (S := S128x128) hz, View.ld_unit_zero (S := S1x128) hz]
  obtain ⟨r0, l0, r1, l1, r2, l2, r3, l3, r4, l4, r5, l5, r6, l6, r7, l7, r8, l8, r9, l9, r10, l10⟩ := idx t
  funext j
  show k2_pay1 (k2_pay2 (iblk2 V c 0 t) (iblk2 V c 1 t) (iblk2 V c 2 t) (iblk2 V c 3 t) (iblk2 V c 4 t) (iblk2 V c 5 t) (iblk2 V c 9 t) (iblk2 V c 8 t)) (iblk2 V c 6 t) (iblk2 V c 7 t) j
      = layer V c (((cfg2.win 10).blk t).view.emb j)
  have hemb : ((cfg2.win 10).blk t).view.emb j = ix2 (rowOf t (j 0)) (j 1) := by
    funext a; apply Fin.ext
    match a with
    | ⟨0, _⟩ => show win2_10.index t (0 : Fin 2) * 2000 + 1 * (j 0).val = 2000 * t.val + (j 0).val; omega
    | ⟨1, _⟩ => show win2_10.index t (1 : Fin 2) * 128 + 1 * (j 1).val = (j 1).val; omega
  rw [hemb]
  refine (Cert.KBody.gin_body2_at _ _ _ _ _ _ _ _ _ _ j).trans ?_
  show _ = Cert.Spec.ginAt _ _ _ _ _ _ _ _ _ _ (rowOf t (j 0)) (j 1)
  exact Cert.Spec.ginAt_congr _ _ _ _ _ _ _ _ _ _ _ _ _ _ _ _ _ _ _ _ (j 0) (rowOf t (j 0)) (j 1)
    (fun j' => by
      show V c main_v75 (((cfg2.win 0).blk t).view.emb (ix2 (j 0) j')) = V c main_v75 (ix2 (rowOf t (j 0)) j')
      refine congrArg _ (funext fun a => Fin.ext ?_)
      match a with
      | ⟨0, _⟩ => show win2_0.index t (0 : Fin 2) * 2000 + 1 * (j 0).val = 2000 * t.val + (j 0).val; omega
      | ⟨1, _⟩ => show win2_0.index t (1 : Fin 2) * 128 + 1 * j'.val = j'.val; omega)
    (fun j' => by
      show V c main_v88 (((cfg2.win 1).blk t).view.emb (ix2 (j 0) j')) = V c main_v88 (ix2 (rowOf t (j 0)) j')
      refine congrArg _ (funext fun a => Fin.ext ?_)
      match a with
      | ⟨0, _⟩ => show win2_1.index t (0 : Fin 2) * 2000 + 1 * (j 0).val = 2000 * t.val + (j 0).val; omega
      | ⟨1, _⟩ => show win2_1.index t (1 : Fin 2) * 128 + 1 * j'.val = j'.val; omega)
    (fun y => by
      show V c main_v90 (((cfg2.win 2).blk t).view.emb y) = V c main_v90 y
      refine congrArg _ (funext fun a => Fin.ext ?_)
      match a with
      | ⟨0, _⟩ => show win2_2.index t (0 : Fin 2) * 128 + 1 * (y 0).val = (y 0).val; omega
      | ⟨1, _⟩ => show win2_2.index t (1 : Fin 2) * 128 + 1 * (y 1).val = (y 1).val; omega)
    (fun y => by
      show V c main_v105 (((cfg2.win 3).blk t).view.emb y) = V c main_v105 y
      refine congrArg _ (funext fun a => Fin.ext ?_)
      match a with
      | ⟨0, _⟩ => show win2_3.index t (0 : Fin 2) * 1 + 1 * (y 0).val = (y 0).val; omega
      | ⟨1, _⟩ => show win2_3.index t (1 : Fin 2) * 128 + 1 * (y 1).val = (y 1).val; omega)
    (fun y => by
      show V c main_v94 (((cfg2.win 4).blk t).view.emb y) = V c main_v94 y
      refine congrArg _ (funext fun a => Fin.ext ?_)
      match a with
      | ⟨0, _⟩ => show win2_4.index t (0 : Fin 2) * 128 + 1 * (y 0).val = (y 0).val; omega
      | ⟨1, _⟩ => show win2_4.index t (1 : Fin 2) * 128 + 1 * (y 1).val = (y 1).val; omega)
    (fun y => by
      show V c main_v106 (((cfg2.win 5).blk t).view.emb y) = V c main_v106 y
      refine congrArg _ (funext fun a => Fin.ext ?_)
      match a with
      | ⟨0, _⟩ => show win2_5.index t (0 : Fin 2) * 1 + 1 * (y 0).val = (y 0).val; omega
      | ⟨1, _⟩ => show win2_5.index t (1 : Fin 2) * 128 + 1 * (y 1).val = (y 1).val; omega)
    (fun y => by
      show V c main_v107 (((cfg2.win 6).blk t).view.emb y) = V c main_v107 y
      refine congrArg _ (funext fun a => Fin.ext ?_)
      match a with
      | ⟨0, _⟩ => show win2_6.index t (0 : Fin 2) * 1 + 1 * (y 0).val = (y 0).val; omega
      | ⟨1, _⟩ => show win2_6.index t (1 : Fin 2) * 128 + 1 * (y 1).val = (y 1).val; omega)
    (fun y => by
      show V c main_v108 (((cfg2.win 7).blk t).view.emb y) = V c main_v108 y
      refine congrArg _ (funext fun a => Fin.ext ?_)
      match a with
      | ⟨0, _⟩ => show win2_7.index t (0 : Fin 2) * 1 + 1 * (y 0).val = (y 0).val; omega
      | ⟨1, _⟩ => show win2_7.index t (1 : Fin 2) * 128 + 1 * (y 1).val = (y 1).val; omega)
    (fun y => by
      show V c main_v109 (((cfg2.win 8).blk t).view.emb y) = V c main_v109 y
      refine congrArg _ (funext fun a => Fin.ext ?_)
      match a with
      | ⟨0, _⟩ => show win2_8.index t (0 : Fin 2) * 1 + 1 * (y 0).val = (y 0).val; omega
      | ⟨1, _⟩ => show win2_8.index t (1 : Fin 2) * 128 + 1 * (y 1).val = (y 1).val; omega)
    (fun y => by
      show V c main_v110 (((cfg2.win 9).blk t).view.emb y) = V c main_v110 y
      refine congrArg _ (funext fun a => Fin.ext ?_)
      match a with
      | ⟨0, _⟩ => show win2_9.index t (0 : Fin 2) * 1 + 1 * (y 0).val = (y 0).val; omega
      | ⟨1, _⟩ => show win2_9.index t (1 : Fin 2) * 128 + 1 * (y 1).val = (y 1).val; omega)

/-- An index of the array is in point `t`'s block iff each coordinate is in the block's range on its axis. -/
theorem mem_blk (t : Fin cfg2.N) (i : S100000x128.Idx) :
    i ∈ ((cfg2.win 10).blk t).view.set ↔ ∀ a : Fin 2, win2_10.index t a * S2000x128.size a ≤ (i a).val ∧ (i a).val < win2_10.index t a * S2000x128.size a + S2000x128.size a := by
  show i ∈ ((View.whole main_v111).slice (win2_10.rect t)).set ↔ _
  rw [View.set_slice_whole, Rect.mem_set_unit]
  exact Iff.rfl

/-- Every row of the array is in the block of the point its row number divided by 2000 names. -/
theorem cover (i : S100000x128.Idx) :
    ∃ t : Fin cfg2.N, (cfg2.win 10).flush t = true ∧ i ∈ ((cfg2.win 10).blk t).view.set := by
  have hN : cfg2.N = 50 := N_2
  have hi : (i 0).val < 100000 := (i 0).isLt
  have h1 : (i 1).val < 128 := (i 1).isLt
  have ht : (i 0).val / 2000 < cfg2.N := by rw [hN]; omega
  obtain ⟨r0, l0, r1, l1, r2, l2, r3, l3, r4, l4, r5, l5, r6, l6, r7, l7, r8, l8, r9, l9, r10, l10⟩ := idx ⟨(i 0).val / 2000, ht⟩
  refine ⟨⟨(i 0).val / 2000, ht⟩, flush2_10 _, ?_⟩
  rw [mem_blk]
  intro a
  match a with
  | ⟨0, _⟩ =>
    show win2_10.index ⟨(i 0).val / 2000, ht⟩ (0 : Fin 2) * 2000 ≤ (i 0).val ∧ (i 0).val < win2_10.index ⟨(i 0).val / 2000, ht⟩ (0 : Fin 2) * 2000 + 2000
    rw [r10]; show (i 0).val / 2000 * 2000 ≤ (i 0).val ∧ (i 0).val < (i 0).val / 2000 * 2000 + 2000; omega
  | ⟨1, _⟩ =>
    show win2_10.index ⟨(i 0).val / 2000, ht⟩ (1 : Fin 2) * 128 ≤ (i 1).val ∧ (i 1).val < win2_10.index ⟨(i 0).val / 2000, ht⟩ (1 : Fin 2) * 128 + 128
    rw [l10]; omega

/-- The output array after the region is the layer of the arrays the region was entered with. -/
theorem final (c : Dev nD) : (dat2 V c).arrAt 10 cfg2.N = layer V c :=
  (dat2 V c).arrAt_eq_of_cover 10 (layer V c) (fun t _ => flushed_eq V c t) cover

end Cert.KLayer2

end
-- ==== Proof.KHead.lean ====
/-
  The head's kernel over its fifty blocks of 2000 rows: the array it leaves.

  At grid point t the feature window holds rows 2000 t .. 2000 t + 1999 of its array and every parameter window holds its
  whole array; the body's result for the block (`Cert.KBody.head_body`) is written back to the same rows of the [100000, 6]
  output. Row p of the block's result is the head's formula at row p of the block, which depends on that row of the
  features only, so the block written back is rows 2000 t .. of the head applied to the whole arrays; the fifty blocks
  cover the 100000 rows.
-/
import proofs.«122921_j10986526343328_1_alg».proof.Proof.Gen.KernelIdeal.Frame
import proofs.«122921_j10986526343328_1_alg».proof.Proof.KBody
import Idealize.ShloMosaic.Lib.Pipeline.Value

set_option maxRecDepth 16384

noncomputable section

namespace Cert.KHead

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block indices of every window at every grid point: the row windows move with the point, the others stay. -/
theorem idx : ∀ t : Fin cfg3.N,
    win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- Row `p` of block `t` is row `2000 t + p` of the array. -/
def rowOf (t : Fin cfg3.N) (p : Fin 2000) : Fin 100000 :=
  ⟨2000 * t.val + p.val, by have h : t.val < 50 := lt_of_lt_of_eq t.isLt N_3; have := p.isLt; omega⟩

/-- The head of the arrays the region finds. -/
abbrev result (c : Dev nD) : S100000x6.Idx → EReal :=
  Cert.Spec.head (V c main_v111) (V c main_arg11) (V c main_v112) (V c main_arg13) (V c main_v113)

/-- What point `t` writes back is block `t` of the head of the arrays. -/
theorem flushed_eq (c : Dev nD) (t : Fin cfg3.N) :
    (dat3 V c).flushed 5 t = ((cfg3.win 5).blk t).view.read (Elt Ideal) (result V c) := by
  show (cfg3.win 5).cut (grid3.coords t) ((dat3 V c).after 5 t) = _
  rw [after3_5]
  unfold out3_5
  rw [View.canon_unit_zero hz]
  simp only [View.ld_unit_zero (S := S2000x128) hz, View.ld_unit_zero (S := S128x256) hz, View.ld_unit_zero (S := S1x256) hz,
    View.ld_unit_zero (S := S256x6) hz, View.ld_unit_zero (S := S1x6) hz]
  obtain ⟨r0, l0, r1, l1, r2, l2, r3, l3, r4, l4, r5, l5⟩ := idx t
  funext j
  show k3_pay1 (iblk3 V c 0 t) (iblk3 V c 1 t) (iblk3 V c 2 t) (iblk3 V c 3 t) (iblk3 V c 4 t) j
      = result V c (((cfg3.win 5).blk t).view.emb j)
  have hemb : ((cfg3.win 5).blk t).view.emb j = ix2 (rowOf t (j 0)) (j 1) := by
    funext a; apply Fin.ext
    match a with
    | ⟨0, _⟩ => show win3_5.index t (0 : Fin 2) * 2000 + 1 * (j 0).val = 2000 * t.val + (j 0).val; omega
    | ⟨1, _⟩ => show win3_5.index t (1 : Fin 2) * 6 + 1 * (j 1).val = (j 1).val; omega
  rw [hemb]
  refine (Cert.KBody.head_body_at _ _ _ _ _ j).trans ?_
  show _ = Cert.Spec.headAt _ _ _ _ _ (rowOf t (j 0)) (j 1)
  exact Cert.Spec.headAt_congr _ _ _ _ _ _ _ _ _ _ (j 0) (rowOf t (j 0)) (j 1)
    (fun j' => by
      show V c main_v111 (((cfg3.win 0).blk t).view.emb (ix2 (j 0) j')) = V c main_v111 (ix2 (rowOf t (j 0)) j')
      refine congrArg _ (funext fun a => Fin.ext ?_)
      match a with
      | ⟨0, _⟩ => show win3_0.index t (0 : Fin 2) * 2000 + 1 * (j 0).val = 2000 * t.val + (j 0).val; omega
      | ⟨1, _⟩ => show win3_0.index t (1 : Fin 2) * 128 + 1 * j'.val = j'.val; omega)
    (fun y => by
      show V c main_arg11 (((cfg3.win 1).blk t).view.emb y) = V c main_arg11 y
      refine congrArg _ (funext fun a => Fin.ext ?_)
      match a with
      | ⟨0, _⟩ => show win3_1.index t (0 : Fin 2) * 128 + 1 * (y 0).val = (y 0).val; omega
      | ⟨1, _⟩ => show win3_1.index t (1 : Fin 2) * 256 + 1 * (y 1).val = (y 1).val; omega)
    (fun y => by
      show V c main_v112 (((cfg3.win 2).blk t).view.emb y) = V c main_v112 y
      refine congrArg _ (funext fun a => Fin.ext ?_)
      match a with
      | ⟨0, _⟩ => show win3_2.index t (0 : Fin 2) * 1 + 1 * (y 0).val = (y 0).val; omega
      | ⟨1, _⟩ => show win3_2.index t (1 : Fin 2) * 256 + 1 * (y 1).val = (y 1).val; omega)
    (fun y => by
      show V c main_arg13 (((cfg3.win 3).blk t).view.emb y) = V c main_arg13 y
      refine congrArg _ (funext fun a => Fin.ext ?_)
      match a with
      | ⟨0, _⟩ => show win3_3.index t (0 : Fin 2) * 256 + 1 * (y 0).val = (y 0).val; omega
      | ⟨1, _⟩ => show win3_3.index t (1 : Fin 2) * 6 + 1 * (y 1).val = (y 1).val; omega)
    (fun y => by
      show V c main_v113 (((cfg3.win 4).blk t).view.emb y) = V c main_v113 y
      refine congrArg _ (funext fun a => Fin.ext ?_)
      match a with
      | ⟨0, _⟩ => show win3_4.index t (0 : Fin 2) * 1 + 1 * (y 0).val = (y 0).val; omega
      | ⟨1, _⟩ => show win3_4.index t (1 : Fin 2) * 6 + 1 * (y 1).val = (y 1).val; omega)

/-- An index of the array is in point `t`'s block iff each coordinate is in the block's range on its axis. -/
theorem mem_blk (t : Fin cfg3.N) (i : S100000x6.Idx) :
    i ∈ ((cfg3.win 5).blk t).view.set ↔ ∀ a : Fin 2, win3_5.index t a * S2000x6.size a ≤ (i a).val ∧ (i a).val < win3_5.index t a * S2000x6.size a + S2000x6.size a := by
  show i ∈ ((View.whole main_v114).slice (win3_5.rect t)).set ↔ _
  rw [View.set_slice_whole, Rect.mem_set_unit]
  exact Iff.rfl

/-- Every row of the array is in the block of the point its row number divided by 2000 names. -/
theorem cover (i : S100000x6.Idx) :
    ∃ t : Fin cfg3.N, (cfg3.win 5).flush t = true ∧ i ∈ ((cfg3.win 5).blk t).view.set := by
  have hN : cfg3.N = 50 := N_3
  have hi : (i 0).val < 100000 := (i 0).isLt
  have h1 : (i 1).val < 6 := (i 1).isLt
  have ht : (i 0).val / 2000 < cfg3.N := by rw [hN]; omega
  obtain ⟨r0, l0, r1, l1, r2, l2, r3, l3, r4, l4, r5, l5⟩ := idx ⟨(i 0).val / 2000, ht⟩
  refine ⟨⟨(i 0).val / 2000, ht⟩, flush3_5 _, ?_⟩
  rw [mem_blk]
  intro a
  match a with
  | ⟨0, _⟩ =>
    show win3_5.index ⟨(i 0).val / 2000, ht⟩ (0 : Fin 2) * 2000 ≤ (i 0).val ∧ (i 0).val < win3_5.index ⟨(i 0).val / 2000, ht⟩ (0 : Fin 2) * 2000 + 2000
    rw [r5]; show (i 0).val / 2000 * 2000 ≤ (i 0).val ∧ (i 0).val < (i 0).val / 2000 * 2000 + 2000; omega
  | ⟨1, _⟩ =>
    show win3_5.index ⟨(i 0).val / 2000, ht⟩ (1 : Fin 2) * 6 ≤ (i 1).val ∧ (i 1).val < win3_5.index ⟨(i 0).val / 2000, ht⟩ (1 : Fin 2) * 6 + 6
    rw [l5]; omega

/-- The output array after the region is the head of the arrays the region was entered with. -/
theorem final (c : Dev nD) : (dat3 V c).arrAt 5 cfg3.N = result V c :=
  (dat3 V c).arrAt_eq_of_cover 5 (result V c) (fun t _ => flushed_eq V c t) cover

end Cert.KHead

end
-- ==== Proof.KChain.lean ====
/-
  The kernel program's result as the network of its arguments.

  Boundary by boundary: the first stretch cuts the edges' sources and destinations out of the edge array, forms the first
  layer's messages from the input features, and slices the first layer's parameters out of the stacks; the first layer's
  kernel then leaves the layer of exactly those arrays (`Cert.KLayer0.final`, which holds whatever the kernel is entered
  with). The second and third stretch and kernel do the same from the previous layer's output, reading the sources, the
  destinations, the edge weights and the parameter stacks where the launch left them (`Cert.KCarry`). The last stretch
  lays the head's two bias vectors out as rows and the head's kernel leaves the head of the third layer's output.
-/
import proofs.«122921_j10986526343328_1_alg».proof.Proof.KCarry
import proofs.«122921_j10986526343328_1_alg».proof.Proof.KLayer0
import proofs.«122921_j10986526343328_1_alg».proof.Proof.KLayer1
import proofs.«122921_j10986526343328_1_alg».proof.Proof.KLayer2
import proofs.«122921_j10986526343328_1_alg».proof.Proof.KHead

set_option maxRecDepth 16384

noncomputable section

namespace Cert.KChain

open Idealize.ShloMosaic Idealize.ShloMosaic.TcCoe Idealize.SL.Sem Idealize.ShloMosaic.StableHlo
open Cert.KernelIdeal Cert.KernelIdeal.Gen Cert.KNet

variable (m : (ℓ : Loc nD τ sig) → Buf (Elt Ideal) ℓ) (ρ : Dev nD → PrngReg) (c : Dev nD)

/-! ## Layer 1: what its kernel is entered with, and what it leaves -/

theorem in1_h : W1 m ρ c (Proc.devRef .tc main_arg0) = (m ((c : Thread nD τ).loc main_arg0)) := Cert.KCarry.W1_main_arg0 m ρ c

theorem in1_a : W1 m ρ c (Proc.devRef .tc main_v16) = agg (m ((c : Thread nD τ).loc main_arg0)) (srcOf (m ((c : Thread nD τ).loc main_arg1))) (dstOf (m ((c : Thread nD τ).loc main_arg1))) (m ((c : Thread nD τ).loc main_arg2)) := by
  show StableHlo.after hostOps0 (W0 m ρ c) (Proc.devRef .tc main_v16) = _
  dsimp only [hostOps0]
  after_results_simp
  try rfl

theorem in1_2 : W1 m ρ c (Proc.devRef .tc main_v18) = mat0 (m ((c : Thread nD τ).loc main_arg3)) := by
  show StableHlo.after hostOps0 (W0 m ρ c) (Proc.devRef .tc main_v18) = _
  dsimp only [hostOps0]
  after_results_simp
  try rfl

theorem in1_3 : W1 m ρ c (Proc.devRef .tc main_v33) = row0 (m ((c : Thread nD τ).loc main_arg4)) := by
  show StableHlo.after hostOps0 (W0 m ρ c) (Proc.devRef .tc main_v33) = _
  dsimp only [hostOps0]
  after_results_simp
  try rfl

theorem in1_4 : W1 m ρ c (Proc.devRef .tc main_v22) = mat0 (m ((c : Thread nD τ).loc main_arg5)) := by
  show StableHlo.after hostOps0 (W0 m ρ c) (Proc.devRef .tc main_v22) = _
  dsimp only [hostOps0]
  after_results_simp
  try rfl

theorem in1_5 : W1 m ρ c (Proc.devRef .tc main_v34) = row0 (m ((c : Thread nD τ).loc main_arg6)) := by
  show StableHlo.after hostOps0 (W0 m ρ c) (Proc.devRef .tc main_v34) = _
  dsimp only [hostOps0]
  after_results_simp
  try rfl

theorem in1_6 : W1 m ρ c (Proc.devRef .tc main_v35) = row0 (m ((c : Thread nD τ).loc main_arg7)) := by
  show StableHlo.after hostOps0 (W0 m ρ c) (Proc.devRef .tc main_v35) = _
  dsimp only [hostOps0]
  after_results_simp
  try rfl

theorem in1_7 : W1 m ρ c (Proc.devRef .tc main_v36) = row0 (m ((c : Thread nD τ).loc main_arg8)) := by
  show StableHlo.after hostOps0 (W0 m ρ c) (Proc.devRef .tc main_v36) = _
  dsimp only [hostOps0]
  after_results_simp
  try rfl

theorem in1_8 : W1 m ρ c (Proc.devRef .tc main_v37) = row0 (m ((c : Thread nD τ).loc main_arg9)) := by
  show StableHlo.after hostOps0 (W0 m ρ c) (Proc.devRef .tc main_v37) = _
  dsimp only [hostOps0]
  after_results_simp
  try rfl

theorem in1_9 : W1 m ρ c (Proc.devRef .tc main_v38) = row0 (m ((c : Thread nD τ).loc main_arg10)) := by
  show StableHlo.after hostOps0 (W0 m ρ c) (Proc.devRef .tc main_v38) = _
  dsimp only [hostOps0]
  after_results_simp
  try rfl

/-- The first layer's kernel leaves the layer of what it was entered with. -/
theorem out1 : W2 m ρ c (Proc.devRef .tc main_v39) = (h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W2_arr m ρ c 10).trans ((Cert.KLayer0.final (V1 m ρ) c).trans
    (Cert.Spec.gin_congr_args (in1_h m ρ c) (in1_a m ρ c) (in1_2 m ρ c) (in1_3 m ρ c) (in1_4 m ρ c)
      (in1_5 m ρ c) (in1_6 m ρ c) (in1_7 m ρ c) (in1_8 m ρ c) (in1_9 m ρ c)))

/-! ## Layer 2: what its kernel is entered with, and what it leaves -/

theorem in2_h : W3 m ρ c (Proc.devRef .tc main_v39) = (h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show StableHlo.after hostOps1 (W2 m ρ c) (Proc.devRef .tc main_v39) = _
  dsimp only [hostOps1]
  after_results_simp
  exact out1 m ρ c

theorem in2_a : W3 m ρ c (Proc.devRef .tc main_v52) = agg (h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (srcOf (m ((c : Thread nD τ).loc main_arg1))) (dstOf (m ((c : Thread nD τ).loc main_arg1))) (m ((c : Thread nD τ).loc main_arg2)) := by
  show StableHlo.after hostOps1 (W2 m ρ c) (Proc.devRef .tc main_v52) = _
  dsimp only [hostOps1]
  after_results_simp
  rw [out1 m ρ c, Cert.KCarry.W2_main_v1 m ρ c, Cert.KCarry.W2_main_v3 m ρ c, Cert.KCarry.W2_main_arg2 m ρ c]
  rfl

theorem in2_2 : W3 m ρ c (Proc.devRef .tc main_v54) = mat1 (m ((c : Thread nD τ).loc main_arg3)) := by
  show StableHlo.after hostOps1 (W2 m ρ c) (Proc.devRef .tc main_v54) = _
  dsimp only [hostOps1]
  after_results_simp
  rw [Cert.KCarry.W2_main_arg3 m ρ c]
  rfl

theorem in2_3 : W3 m ρ c (Proc.devRef .tc main_v69) = row1 (m ((c : Thread nD τ).loc main_arg4)) := by
  show StableHlo.after hostOps1 (W2 m ρ c) (Proc.devRef .tc main_v69) = _
  dsimp only [hostOps1]
  after_results_simp
  rw [Cert.KCarry.W2_main_arg4 m ρ c]
  rfl

theorem in2_4 : W3 m ρ c (Proc.devRef .tc main_v58) = mat1 (m ((c : Thread nD τ).loc main_arg5)) := by
  show StableHlo.after hostOps1 (W2 m ρ c) (Proc.devRef .tc main_v58) = _
  dsimp only [hostOps1]
  after_results_simp
  rw [Cert.KCarry.W2_main_arg5 m ρ c]
  rfl

theorem in2_5 : W3 m ρ c (Proc.devRef .tc main_v70) = row1 (m ((c : Thread nD τ).loc main_arg6)) := by
  show StableHlo.after hostOps1 (W2 m ρ c) (Proc.devRef .tc main_v70) = _
  dsimp only [hostOps1]
  after_results_simp
  rw [Cert.KCarry.W2_main_arg6 m ρ c]
  rfl

theorem in2_6 : W3 m ρ c (Proc.devRef .tc main_v71) = row1 (m ((c : Thread nD τ).loc main_arg7)) := by
  show StableHlo.after hostOps1 (W2 m ρ c) (Proc.devRef .tc main_v71) = _
  dsimp only [hostOps1]
  after_results_simp
  rw [Cert.KCarry.W2_main_arg7 m ρ c]
  rfl

theorem in2_7 : W3 m ρ c (Proc.devRef .tc main_v72) = row1 (m ((c : Thread nD τ).loc main_arg8)) := by
  show StableHlo.after hostOps1 (W2 m ρ c) (Proc.devRef .tc main_v72) = _
  dsimp only [hostOps1]
  after_results_simp
  rw [Cert.KCarry.W2_main_arg8 m ρ c]
  rfl

theorem in2_8 : W3 m ρ c (Proc.devRef .tc main_v73) = row1 (m ((c : Thread nD τ).loc main_arg9)) := by
  show StableHlo.after hostOps1 (W2 m ρ c) (Proc.devRef .tc main_v73) = _
  dsimp only [hostOps1]
  after_results_simp
  rw [Cert.KCarry.W2_main_arg9 m ρ c]
  rfl

theorem in2_9 : W3 m ρ c (Proc.devRef .tc main_v74) = row1 (m ((c : Thread nD τ).loc main_arg10)) := by
  show StableHlo.after hostOps1 (W2 m ρ c) (Proc.devRef .tc main_v74) = _
  dsimp only [hostOps1]
  after_results_simp
  rw [Cert.KCarry.W2_main_arg10 m ρ c]
  rfl

/-- The second layer's kernel leaves the layer of what it was entered with. -/
theorem out2 : W4 m ρ c (Proc.devRef .tc main_v75) = (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W4_arr m ρ c 10).trans ((Cert.KLayer1.final (V3 m ρ) c).trans
    (Cert.Spec.gin_congr_args (in2_h m ρ c) (in2_a m ρ c) (in2_2 m ρ c) (in2_3 m ρ c) (in2_4 m ρ c)
      (in2_5 m ρ c) (in2_6 m ρ c) (in2_7 m ρ c) (in2_8 m ρ c) (in2_9 m ρ c)))

/-! ## Layer 3: what its kernel is entered with, and what it leaves -/

theorem in3_h : W5 m ρ c (Proc.devRef .tc main_v75) = (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show StableHlo.after hostOps2 (W4 m ρ c) (Proc.devRef .tc main_v75) = _
  dsimp only [hostOps2]
  after_results_simp
  exact out2 m ρ c

theorem in3_a : W5 m ρ c (Proc.devRef .tc main_v88) = agg (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (srcOf (m ((c : Thread nD τ).loc main_arg1))) (dstOf (m ((c : Thread nD τ).loc main_arg1))) (m ((c : Thread nD τ).loc main_arg2)) := by
  show StableHlo.after hostOps2 (W4 m ρ c) (Proc.devRef .tc main_v88) = _
  dsimp only [hostOps2]
  after_results_simp
  rw [out2 m ρ c, Cert.KCarry.W4_main_v1 m ρ c, Cert.KCarry.W4_main_v3 m ρ c, Cert.KCarry.W4_main_arg2 m ρ c]
  rfl

theorem in3_2 : W5 m ρ c (Proc.devRef .tc main_v90) = mat2 (m ((c : Thread nD τ).loc main_arg3)) := by
  show StableHlo.after hostOps2 (W4 m ρ c) (Proc.devRef .tc main_v90) = _
  dsimp only [hostOps2]
  after_results_simp
  rw [Cert.KCarry.W4_main_arg3 m ρ c]
  rfl

theorem in3_3 : W5 m ρ c (Proc.devRef .tc main_v105) = row2 (m ((c : Thread nD τ).loc main_arg4)) := by
  show StableHlo.after hostOps2 (W4 m ρ c) (Proc.devRef .tc main_v105) = _
  dsimp only [hostOps2]
  after_results_simp
  rw [Cert.KCarry.W4_main_arg4 m ρ c]
  rfl

theorem in3_4 : W5 m ρ c (Proc.devRef .tc main_v94) = mat2 (m ((c : Thread nD τ).loc main_arg5)) := by
  show StableHlo.after hostOps2 (W4 m ρ c) (Proc.devRef .tc main_v94) = _
  dsimp only [hostOps2]
  after_results_simp
  rw [Cert.KCarry.W4_main_arg5 m ρ c]
  rfl

theorem in3_5 : W5 m ρ c (Proc.devRef .tc main_v106) = row2 (m ((c : Thread nD τ).loc main_arg6)) := by
  show StableHlo.after hostOps2 (W4 m ρ c) (Proc.devRef .tc main_v106) = _
  dsimp only [hostOps2]
  after_results_simp
  rw [Cert.KCarry.W4_main_arg6 m ρ c]
  rfl

theorem in3_6 : W5 m ρ c (Proc.devRef .tc main_v107) = row2 (m ((c : Thread nD τ).loc main_arg7)) := by
  show StableHlo.after hostOps2 (W4 m ρ c) (Proc.devRef .tc main_v107) = _
  dsimp only [hostOps2]
  after_results_simp
  rw [Cert.KCarry.W4_main_arg7 m ρ c]
  rfl

theorem in3_7 : W5 m ρ c (Proc.devRef .tc main_v108) = row2 (m ((c : Thread nD τ).loc main_arg8)) := by
  show StableHlo.after hostOps2 (W4 m ρ c) (Proc.devRef .tc main_v108) = _
  dsimp only [hostOps2]
  after_results_simp
  rw [Cert.KCarry.W4_main_arg8 m ρ c]
  rfl

theorem in3_8 : W5 m ρ c (Proc.devRef .tc main_v109) = row2 (m ((c : Thread nD τ).loc main_arg9)) := by
  show StableHlo.after hostOps2 (W4 m ρ c) (Proc.devRef .tc main_v109) = _
  dsimp only [hostOps2]
  after_results_simp
  rw [Cert.KCarry.W4_main_arg9 m ρ c]
  rfl

theorem in3_9 : W5 m ρ c (Proc.devRef .tc main_v110) = row2 (m ((c : Thread nD τ).loc main_arg10)) := by
  show StableHlo.after hostOps2 (W4 m ρ c) (Proc.devRef .tc main_v110) = _
  dsimp only [hostOps2]
  after_results_simp
  rw [Cert.KCarry.W4_main_arg10 m ρ c]
  rfl

/-- The third layer's kernel leaves the layer of what it was entered with. -/
theorem out3 : W6 m ρ c (Proc.devRef .tc main_v111) = (h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W6_arr m ρ c 10).trans ((Cert.KLayer2.final (V5 m ρ) c).trans
    (Cert.Spec.gin_congr_args (in3_h m ρ c) (in3_a m ρ c) (in3_2 m ρ c) (in3_3 m ρ c) (in3_4 m ρ c)
      (in3_5 m ρ c) (in3_6 m ρ c) (in3_7 m ρ c) (in3_8 m ρ c) (in3_9 m ρ c)))

/-! ## The head: what its kernel is entered with, and what it leaves -/

theorem in4_h : W7 m ρ c (Proc.devRef .tc main_v111) = (h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show StableHlo.after hostOps3 (W6 m ρ c) (Proc.devRef .tc main_v111) = _
  dsimp only [hostOps3]
  after_results_simp
  exact out3 m ρ c

theorem in4_b3 : W7 m ρ c (Proc.devRef .tc main_v112) = row256 (m ((c : Thread nD τ).loc main_arg12)) := by
  show StableHlo.after hostOps3 (W6 m ρ c) (Proc.devRef .tc main_v112) = _
  dsimp only [hostOps3]
  after_results_simp
  rw [Cert.KCarry.W6_main_arg12 m ρ c]
  rfl

theorem in4_b4 : W7 m ρ c (Proc.devRef .tc main_v113) = row6 (m ((c : Thread nD τ).loc main_arg14)) := by
  show StableHlo.after hostOps3 (W6 m ρ c) (Proc.devRef .tc main_v113) = _
  dsimp only [hostOps3]
  after_results_simp
  rw [Cert.KCarry.W6_main_arg14 m ρ c]
  rfl

/-- The result buffer at the last boundary holds the network of the launch contents of the arguments. -/
theorem result : W8 m ρ c (Proc.devRef .tc main_v114) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W8_arr m ρ c 5).trans ((Cert.KHead.final (V7 m ρ) c).trans
    (Cert.Spec.head_congr_args (in4_h m ρ c) (Cert.KCarry.W7_main_arg11 m ρ c) (in4_b3 m ρ c)
      (Cert.KCarry.W7_main_arg13 m ρ c) (in4_b4 m ρ c)))

end Cert.KChain

end
-- ==== Proof.LibDotRows.lean ====
/-
  The host's matrix product, rows by columns, read at an entry on the extended reals:
  for lhs : [M, K] and rhs : [K, N] with the left axis 1 contracted against the right axis 0, entry (m, n) of the product
  is ∑ k, lhs (m, k) * rhs (k, n).  The dimension record is the one built from the literal axis lists; its
  well-formedness proof is a parameter.  Over any extents and operand formats.
-/
import Idealize.ShloMosaic.PureOps.Ideal.Laws
import Idealize.ShloMosaic.Lib.ValueIdx

namespace Cert.LibDotRows

open Idealize.ShloMosaic Idealize.ShloMosaic.ValueIdx

variable {M K N : ℕ} {φ₁ φ₂ : FTy}

theorem dot_rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    Host.dotGeneral (⟨[1], [0], [0], [1], [], [], wf⟩ : DotDims (⟨2, ![M, K]⟩ : Shape) (⟨2, ![K, N]⟩ : Shape) (⟨2, ![M, N]⟩ : Shape))
        prec lhs rhs (ix2 m n)
      = ∑ k : Fin K, lhs (ix2 m k) * rhs (ix2 k n) := by
  simp only [Host.dotGeneral]
  rw [Ideal.dotGeneral_apply,
    ← Equiv.sum_comp (contrEquiv1 (⟨[1], [0], [0], [1], [], [], wf⟩ : DotDims (⟨2, ![M, K]⟩ : Shape) (⟨2, ![K, N]⟩ : Shape) (⟨2, ![M, N]⟩ : Shape)) K rfl rfl).symm]
  refine Finset.sum_congr rfl fun k _ => ?_
  congr 2
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

end Cert.LibDotRows
-- ==== Proof.LibBcast.lean ====
/-
  Four layouts of `broadcast_in_dim` read at an entry, for any element type and extents:
    * a vector [n] as a column [n, 1]:            entry (p, u) is the vector at p;
    * a column [n, 1] spread over k lanes [n, k]:  entry (p, q) is the column at (p, 0);
    * a vector [k] as a row [1, k]:               entry (u, q) is the vector at q;
    * a row [1, k] spread down n rows [n, k]:      entry (p, q) is the row at (0, q).
-/
import Idealize.ShloMosaic.Lib.ValueIdx
import Idealize.ShloMosaic.Lib.Pipeline.Value

namespace Cert.LibBcast

open Idealize.ShloMosaic Idealize.ShloMosaic.ValueIdx

variable {α : Type} {n k : ℕ}

theorem vecAsCol_apply (x : (⟨1, ![n]⟩ : Shape).Idx → α) (h : (⟨1, ![n]⟩ : Shape).BroadcastsInDim ⟨2, ![n, 1]⟩ ![0])
    (p : Fin n) (u : Fin 1) : broadcastInDim ⟨2, ![n, 1]⟩ ![0] h x (ix2 p u) = x (ix1 p) := by
  refine broadcastInDim_apply _ h x (ix2 p u) (ix1 p) fun a => ?_
  obtain rfl : a = 0 := Subsingleton.elim _ _
  show p.val = if n = 1 then 0 else p.val
  split
  · have := p.isLt; omega
  · rfl

theorem colOverLanes_apply (x : (⟨2, ![n, 1]⟩ : Shape).Idx → α)
    (h : (⟨2, ![n, 1]⟩ : Shape).BroadcastsInDim ⟨2, ![n, k]⟩ ![0, 1]) (p : Fin n) (q : Fin k) :
    broadcastInDim ⟨2, ![n, k]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => rfl

theorem vecAsRow_apply (x : (⟨1, ![k]⟩ : Shape).Idx → α) (h : (⟨1, ![k]⟩ : Shape).BroadcastsInDim ⟨2, ![1, k]⟩ ![1])
    (u : Fin 1) (q : Fin k) : broadcastInDim ⟨2, ![1, k]⟩ ![1] h x (ix2 u q) = x (ix1 q) := by
  refine broadcastInDim_apply _ h x (ix2 u q) (ix1 q) fun a => ?_
  obtain rfl : a = 0 := Subsingleton.elim _ _
  show q.val = if k = 1 then 0 else q.val
  split
  · have := q.isLt; omega
  · rfl

theorem rowDownRows_apply (x : (⟨2, ![1, k]⟩ : Shape).Idx → α)
    (h : (⟨2, ![1, k]⟩ : Shape).BroadcastsInDim ⟨2, ![n, k]⟩ ![0, 1]) (p : Fin n) (q : Fin k) :
    broadcastInDim ⟨2, ![n, k]⟩ ![0, 1] h x (ix2 p q) = x (ix2 (0 : Fin 1) q) := by
  refine broadcastInDim_apply _ h x (ix2 p q) (ix2 (0 : Fin 1) q) fun a => ?_
  match a with
  | ⟨0, _⟩ => rfl
  | ⟨1, _⟩ =>
    show q.val = if k = 1 then 0 else q.val
    split
    · have := q.isLt; omega
    · rfl

end Cert.LibBcast
-- ==== Proof.RefLayer.lean ====
/-
  The reference's layer and head, as the host spells them on whole arrays, are the specification's.

  The host computes a layer on the [100000, 128] arrays at once: a sum of the features and the messages, a matrix product
  with the first weight matrix (a plain sum over the contracted axis on the extended reals), the bias vector laid out as a
  row and spread down the rows, a rectifier against the spread zero, the second product and bias, the mean subtracted,
  the product with the spread inverse square root of the variance plus the constant, with the spread scale, the spread
  shift added, and a rectifier. Read at an entry (p, q) every spread vector is the vector at q, so the entry is the
  specification's formula with each vector read as a one-row matrix (`asRow`: the vector cast to [1, n]).
  The head is two products with their biases and one rectifier, read the same way.
-/
import proofs.«122921_j10986526343328_1_alg».proof.Proof.Gen.ReferenceIdeal
import proofs.«122921_j10986526343328_1_alg».proof.Proof.LibDotRows
import proofs.«122921_j10986526343328_1_alg».proof.Proof.LibBcast
import proofs.«122921_j10986526343328_1_alg».proof.Proof.Spec
import Idealize.ShloMosaic.Lib.IdealHost
import Idealize.ShloMosaic.Lib.Pipeline.Value

noncomputable section

namespace Cert.RefLayer

open Idealize.ShloMosaic Idealize.ShloMosaic.ValueIdx Cert.ReferenceIdeal Cert.ReferenceIdeal.Facts₀ Cert.ReferenceIdeal.Facts

/-- A vector [n] cast to the one-row matrix [1, n] reads, at (0, q), the vector at q. -/
theorem asRow_apply {n : ℕ} (x : (⟨1, ![n]⟩ : Shape).Idx → EReal) (hc : (⟨1, ![n]⟩ : Shape).ShapeCasts ⟨2, ![1, n]⟩)
    (q : Fin n) : shapeCast ⟨2, ![1, n]⟩ x hc (ix2 (0 : Fin 1) q) = x (ix1 q) :=
  shapeCast_apply x hc _ _ (by
    rw [Shape.rowMajor_val_two, Shape.rowMajor_val_one]
    show q.val = 0 * n + q.val
    omega)

/-- A vector [n] laid out as a row and spread down `R` rows reads, at (p, q), the vector at q. -/
theorem spread_apply {R n : ℕ} (x : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![R, n]⟩ ![0, 1]) (p : Fin R) (q : Fin n) :
    broadcastInDim ⟨2, ![R, n]⟩ ![0, 1] h2 (broadcastInDim ⟨2, ![1, n]⟩ ![1] h1 x) (ix2 p q) = x (ix1 q) := by
  rw [Cert.LibBcast.rowDownRows_apply, Cert.LibBcast.vecAsRow_apply]

/-- The host's inverse square root of a vector, at an entry. -/
theorem hostRsqrt_apply {s : Shape} {φ : FTy} (v : FVec Ideal s φ) (i : s.Idx) :
    Host.rsqrt v i = FloatOps.hostUnary .rsqrt (v i) := rfl

/-- A per-lane vector spread over the [100000, 128] array reads, at (p, q), the vector at q. -/
theorem spread128 (x : FVec Ideal S128 .f32) (p : Fin 100000) (q : Fin 128) :
    broadcastInDim S100000x128 ![0, 1] bcast_S1x128_S100000x128_0_1 (broadcastInDim S1x128 ![1] bcast_S128_S1x128_1 x) (ix2 p q)
      = x (ix1 q) :=
  spread_apply x _ _ p q

/-- The zero spread over the [100000, 128] array. -/
theorem zero128 (i : S100000x128.Idx) :
    broadcastInDim S100000x128 ![] bcast_S_S100000x128 (constant (F := Ideal) S_ .f32 0x00000000#32) i = Cert.Spec.z0 :=
  broadcastInDim_scalar_apply _ _ i

/-- The constant spread over the [128] vector. -/
theorem eps128 (i : S128.Idx) :
    broadcastInDim S128 ![] bcast_S_S128 (constant (F := Ideal) S_ .f32 0x3A83126F#32) i = Cert.Spec.eps :=
  broadcastInDim_scalar_apply _ _ i

/-- The host's product of a [100000, 128] array with a [128, 128] matrix, at an entry. -/
theorem dot128 (X : FVec Ideal S100000x128 .f32) (W : FVec Ideal S128x128 .f32) (p : Fin 100000) (k : Fin 128) :
    Host.dotGeneral dot_S100000x128_S128x128_S100000x128_1_0_0_1_n_n none X W (ix2 p k) = ∑ i : Fin 128, X (ix2 p i) * W (ix2 i k) :=
  Cert.LibDotRows.dot_rows_cols dot_S100000x128_S128x128_S100000x128_1_0_0_1_n_n.wf none X W p k

/-- A [128] vector as a one-row matrix, at (0, q). -/
theorem row128 (x : FVec Ideal S128 .f32) (hc : S128.ShapeCasts S1x128) (q : Fin 128) :
    shapeCast S1x128 x hc (ix2 (0 : Fin 1) q) = x (ix1 q) := asRow_apply x hc q

/-- The reference's layer on whole arrays is the specification's layer, its vectors read as one-row matrices. -/
theorem gin_eq (h a : FVec Ideal S100000x128 .f32) (w1 : FVec Ideal S128x128 .f32) (b1 : FVec Ideal S128 .f32)
    (w2 : FVec Ideal S128x128 .f32) (b2 g be mu va : FVec Ideal S128 .f32) (hc : S128.ShapeCasts S1x128) :
    maximumf
      (addf
        (mulf
          (mulf
            (subf
              (addf
                (Host.dotGeneral dot_S100000x128_S128x128_S100000x128_1_0_0_1_n_n none
                  (maximumf
                    (addf (Host.dotGeneral dot_S100000x128_S128x128_S100000x128_1_0_0_1_n_n none (addf h a) w1)
                      (broadcastInDim S100000x128 ![0, 1] bcast_S1x128_S100000x128_0_1 (broadcastInDim S1x128 ![1] bcast_S128_S1x128_1 b1)))
                    (broadcastInDim S100000x128 ![] bcast_S_S100000x128 (constant S_ .f32 0x00000000#32)))
                  w2)
                (broadcastInDim S100000x128 ![0, 1] bcast_S1x128_S100000x128_0_1 (broadcastInDim S1x128 ![1] bcast_S128_S1x128_1 b2)))
              (broadcastInDim S100000x128 ![0, 1] bcast_S1x128_S100000x128_0_1 (broadcastInDim S1x128 ![1] bcast_S128_S1x128_1 mu)))
            (broadcastInDim S100000x128 ![0, 1] bcast_S1x128_S100000x128_0_1 (broadcastInDim S1x128 ![1] bcast_S128_S1x128_1
              (Host.rsqrt (addf va (broadcastInDim S128 ![] bcast_S_S128 (constant S_ .f32 0x3A83126F#32)))))))
          (broadcastInDim S100000x128 ![0, 1] bcast_S1x128_S100000x128_0_1 (broadcastInDim S1x128 ![1] bcast_S128_S1x128_1 g)))
        (broadcastInDim S100000x128 ![0, 1] bcast_S1x128_S100000x128_0_1 (broadcastInDim S1x128 ![1] bcast_S128_S1x128_1 be)))
      (broadcastInDim S100000x128 ![] bcast_S_S100000x128 (constant S_ .f32 0x00000000#32))
    = Cert.Spec.gin h a w1 (shapeCast S1x128 b1 hc) w2 (shapeCast S1x128 b2 hc) (shapeCast S1x128 g hc)
        (shapeCast S1x128 be hc) (shapeCast S1x128 mu hc) (shapeCast S1x128 va hc) := by
  funext i
  obtain ⟨p, q, rfl⟩ : ∃ (p : Fin 100000) (q : Fin 128), i = ix2 p q := ⟨i 0, i 1, eq_ix2 i⟩
  show _ = Cert.Spec.ginAt _ _ _ _ _ _ _ _ _ _ p q
  unfold Cert.Spec.ginAt Cert.Spec.preNormAt
  simp only [maximumf_apply, addf_apply, mulf_apply, subf_apply, dot128, row128]
  rw [spread128 b2 p q, spread128 mu p q, spread128 g p q, spread128 be p q, spread128 _ p q, zero128 (ix2 p q)]
  simp only [hostRsqrt_apply, addf_apply, Ideal.hostUnary_rsqrt_def]
  rw [eps128]
  have hsum : (∑ x : Fin 128, max ((∑ i : Fin 128, (h (ix2 p i) + a (ix2 p i)) * w1 (ix2 i x))
        + broadcastInDim S100000x128 ![0, 1] bcast_S1x128_S100000x128_0_1 (broadcastInDim S1x128 ![1] bcast_S128_S1x128_1 b1) (ix2 p x))
        (broadcastInDim S100000x128 ![] bcast_S_S100000x128 (constant (F := Ideal) S_ .f32 0x00000000#32) (ix2 p x)) * w2 (ix2 x q))
      = ∑ k : Fin 128, Cert.Spec.hiddenAt h a w1 (shapeCast S1x128 b1 hc) p k * w2 (ix2 k q) :=
    Finset.sum_congr rfl fun k _ => by
      rw [spread128 b1 p k, zero128 (ix2 p k)]; unfold Cert.Spec.hiddenAt; rw [row128]
  rw [hsum]

/-- The head's bias vectors spread over the rows, the zero spread over [100000, 256], and its two products. -/
theorem spread256 (x : FVec Ideal S256 .f32) (p : Fin 100000) (q : Fin 256) :
    broadcastInDim S100000x256 ![0, 1] bcast_S1x256_S100000x256_0_1 (broadcastInDim S1x256 ![1] bcast_S256_S1x256_1 x) (ix2 p q)
      = x (ix1 q) :=
  spread_apply x _ _ p q

theorem spread6 (x : FVec Ideal S6 .f32) (p : Fin 100000) (q : Fin 6) :
    broadcastInDim S100000x6 ![0, 1] bcast_S1x6_S100000x6_0_1 (broadcastInDim S1x6 ![1] bcast_S6_S1x6_1 x) (ix2 p q)
      = x (ix1 q) :=
  spread_apply x _ _ p q

theorem zero256 (i : S100000x256.Idx) :
    broadcastInDim S100000x256 ![] bcast_S_S100000x256 (constant (F := Ideal) S_ .f32 0x00000000#32) i = Cert.Spec.z0 :=
  broadcastInDim_scalar_apply _ _ i

theorem dot256 (X : FVec Ideal S100000x128 .f32) (W : FVec Ideal S128x256 .f32) (p : Fin 100000) (k : Fin 256) :
    Host.dotGeneral dot_S100000x128_S128x256_S100000x256_1_0_0_1_n_n none X W (ix2 p k) = ∑ i : Fin 128, X (ix2 p i) * W (ix2 i k) :=
  Cert.LibDotRows.dot_rows_cols dot_S100000x128_S128x256_S100000x256_1_0_0_1_n_n.wf none X W p k

theorem dot6 (X : FVec Ideal S100000x256 .f32) (W : FVec Ideal S256x6 .f32) (p : Fin 100000) (k : Fin 6) :
    Host.dotGeneral dot_S100000x256_S256x6_S100000x6_1_0_0_1_n_n none X W (ix2 p k) = ∑ i : Fin 256, X (ix2 p i) * W (ix2 i k) :=
  Cert.LibDotRows.dot_rows_cols dot_S100000x256_S256x6_S100000x6_1_0_0_1_n_n.wf none X W p k

theorem row256 (x : FVec Ideal S256 .f32) (hc : S256.ShapeCasts S1x256) (q : Fin 256) :
    shapeCast S1x256 x hc (ix2 (0 : Fin 1) q) = x (ix1 q) := asRow_apply x hc q

theorem row6 (x : FVec Ideal S6 .f32) (hc : S6.ShapeCasts S1x6) (q : Fin 6) :
    shapeCast S1x6 x hc (ix2 (0 : Fin 1) q) = x (ix1 q) := asRow_apply x hc q

/-- The reference's head on whole arrays is the specification's head, its bias vectors read as one-row matrices. -/
theorem head_eq (h : FVec Ideal S100000x128 .f32) (w3 : FVec Ideal S128x256 .f32) (b3 : FVec Ideal S256 .f32)
    (w4 : FVec Ideal S256x6 .f32) (b4 : FVec Ideal S6 .f32) (hc3 : S256.ShapeCasts S1x256) (hc4 : S6.ShapeCasts S1x6) :
    addf
      (Host.dotGeneral dot_S100000x256_S256x6_S100000x6_1_0_0_1_n_n none
        (maximumf
          (addf (Host.dotGeneral dot_S100000x128_S128x256_S100000x256_1_0_0_1_n_n none h w3)
            (broadcastInDim S100000x256 ![0, 1] bcast_S1x256_S100000x256_0_1 (broadcastInDim S1x256 ![1] bcast_S256_S1x256_1 b3)))
          (broadcastInDim S100000x256 ![] bcast_S_S100000x256 (constant S_ .f32 0x00000000#32)))
        w4)
      (broadcastInDim S100000x6 ![0, 1] bcast_S1x6_S100000x6_0_1 (broadcastInDim S1x6 ![1] bcast_S6_S1x6_1 b4))
    = Cert.Spec.head h w3 (shapeCast S1x256 b3 hc3) w4 (shapeCast S1x6 b4 hc4) := by
  funext i
  obtain ⟨p, q, rfl⟩ : ∃ (p : Fin 100000) (q : Fin 6), i = ix2 p q := ⟨i 0, i 1, eq_ix2 i⟩
  show _ = Cert.Spec.headAt _ _ _ _ _ p q
  unfold Cert.Spec.headAt
  simp only [maximumf_apply, addf_apply, dot256, dot6, row256, row6]
  rw [spread6 b4 p q]
  refine congrArg (· + b4 (ix1 q)) (Finset.sum_congr rfl fun k _ => ?_)
  rw [spread256 b3 p k, zero256 (ix2 p k)]

end Cert.RefLayer

end
-- ==== Proof.RefNet.lean ====
/-
  The reference program's result as the network of its arguments.

  The reference's run ends with its result at one long term of host operations of the arguments. Three times in it stands
  the host's spelling of a layer applied to the previous features and their messages, and around them the host's spelling
  of the head; each is the specification's layer or head (`Cert.RefLayer`). What remains — the gathers and accumulating
  scatters that form the messages, the slices of the parameter stacks — is spelt operation for operation as the kernel
  program spells it, so the whole term is the network `Cert.KNet.net` of the arguments.
-/
import proofs.«122921_j10986526343328_1_alg».proof.Proof.Gen.ReferenceIdeal.Run
import proofs.«122921_j10986526343328_1_alg».proof.Proof.RefLayer
import proofs.«122921_j10986526343328_1_alg».proof.Proof.KNet

set_option maxRecDepth 16384

noncomputable section

namespace Cert.RefNet

open Idealize.ShloMosaic Idealize.ShloMosaic.TcCoe Idealize.SL.Sem
open Cert.ReferenceIdeal Cert.ReferenceIdeal.Gen Cert.ReferenceIdeal.Value

variable (m : (ℓ : Loc nD τ sig) → Buf (Elt Ideal) ℓ) (c : Dev nD)

set_option maxHeartbeats 4000000 in
/-- The reference's result term is the network of the launch contents of its arguments. -/
theorem result : res_main_v177 (F := Ideal) m c
    = Cert.KNet.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold res_main_v177
  rw [Cert.RefLayer.head_eq _ _ _ _ _ Cert.KNet.hc256 Cert.KNet.hc6]
  rw [Cert.RefLayer.gin_eq _ _ _ _ _ _ _ _ _ _ Cert.KNet.hc128]
  rw [Cert.RefLayer.gin_eq _ _ _ _ _ _ _ _ _ _ Cert.KNet.hc128]
  rw [Cert.RefLayer.gin_eq _ _ _ _ _ _ _ _ _ _ Cert.KNet.hc128]
  rfl

end Cert.RefNet

end
-- ==== Proof.lean ====
/-
  A three-layer message-passing network with a two-layer head: the kernel program against its reference, on the
  extended reals.

  Both programs compute, for node features x : [100000, 128], edges (source, destination) with weights, and stacked
  per-layer parameters: three times "gather the source rows of the features, scale each by its edge weight, add them up
  per destination node; add the features; dense layer, rectifier, dense layer; normalise by the stored mean and variance;
  scale, shift, rectifier", then "dense layer, rectifier, dense layer" into six labels. The kernel program leaves the
  gather and the accumulating scatter to host operations, spelt exactly as the reference spells them, and runs the dense
  part of each layer, and the head, as one kernel over fifty blocks of 2000 rows; the reference runs everything as host
  operations on whole arrays.

  On the extended reals a change of float format is the identity and every matrix product, the kernel's into a zero
  accumulator as well as the host's, is the plain sum over the contracted axis. A row of a layer's result depends on the
  same row of its inputs only, so a kernel's fifty blocks are the fifty row ranges of the whole-array layer
  (`Cert.KLayer0` … `Cert.KHead`, over the block computation `Cert.KBody` and the formulas `Cert.Spec`). Folding
  the kernel program's segments from the launch memory (`Cert.KRun`, `Cert.KCarry`, `Cert.KChain`) and reading the
  reference's run (`Cert.RefLayer`, `Cert.RefNet`) gives one and the same function `Cert.KNet.net` of the fifteen
  arguments. No algebraic law beyond re-indexing is used, so the finiteness of the inputs is never needed.
-/
import proofs.«122921_j10986526343328_1_alg».proof.Defs
import proofs.«122921_j10986526343328_1_alg».proof.Proof.Gen.Kernel
import proofs.«122921_j10986526343328_1_alg».proof.Proof.Gen.Kernel.Frame
import proofs.«122921_j10986526343328_1_alg».proof.Proof.Gen.KernelIdeal
import proofs.«122921_j10986526343328_1_alg».proof.Proof.Gen.KernelIdeal.Frame
import proofs.«122921_j10986526343328_1_alg».proof.Proof.Gen.ReferenceIdeal
import proofs.«122921_j10986526343328_1_alg».proof.Proof.Gen.ReferenceIdeal.Run
import proofs.«122921_j10986526343328_1_alg».proof.Proof.Gen.Pre_finite_inputs
import proofs.«122921_j10986526343328_1_alg».proof.Proof.KRun
import proofs.«122921_j10986526343328_1_alg».proof.Proof.KChain
import proofs.«122921_j10986526343328_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network of the arguments in their result buffer. -/
theorem algebraic : Cert.algebraic_KernelIdeal_ReferenceIdeal := by
  intro m ρ m' ρ' _ hagree
  refine ⟨fun c => Cert.KNet.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KChain.result m ρ c), (h c).2⟩) (Cert.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.RefNet.result m' c, e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
